-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x512x64x64 : Shape := ⟨4, ![16, 512, 64, 64]⟩
abbrev S1536x512 : Shape := ⟨2, ![1536, 512]⟩
abbrev S512x512 : Shape := ⟨2, ![512, 512]⟩
abbrev S512 : Shape := ⟨1, ![512]⟩
abbrev S_ : Shape := ⟨0, ![]⟩

class Facts : Prop where
  bcast_S_S16x512x64x64 : S_.BroadcastsInDim S16x512x64x64 (![] : Fin 0 → Fin S16x512x64x64.rank)
  reducesTo_S16x512x64x64_S_d0_1_2_3 : S16x512x64x64.ReducesTo [0, 1, 2, 3] S_
  h_S_ : 0 < S_.numel
  bcast_S_S1536x512 : S_.BroadcastsInDim S1536x512 (![] : Fin 0 → Fin S1536x512.rank)
  reducesTo_S1536x512_S_d0_1 : S1536x512.ReducesTo [0, 1] S_
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_

variable [Facts]

def fn_part1 {F : FTy → Type} [FloatOps F] (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  main_v18

def fn {F : FTy → Type} [FloatOps F] (main_arg0 : FVec F S16x512x64x64 .f32) (main_arg1 : FVec F S1536x512 .f32) (main_arg2 : FVec F S512x512 .f32) (main_arg3 : FVec F S512 .f32) : IVec S_ 1 :=
  let main_v0 : FVec F S16x512x64x64 .f32 := Host.absf main_arg0
  let main_cst : FVec F S_ .f32 := constant S_ .f32 0x7F800000#32
  let main_v1 : FVec F S16x512x64x64 .f32 := broadcastInDim S16x512x64x64 ![] bcast_S_S16x512x64x64 main_cst
  let main_v2 : IVec S16x512x64x64 1 := cmpf .olt main_v0 main_v1
  let main_c : IVec S_ 1 := constantI S_ 1 1#1
  let main_v3 : IVec S_ 1 := (fun x v => Host.reduce IntOp.andi x v reducesTo_S16x512x64x64_S_d0_1_2_3 h_S_) main_v2 main_c
  let main_v4 : FVec F S1536x512 .f32 := Host.absf main_arg1
  let main_cst_0 : FVec F S_ .f32 := constant S_ .f32 0x7F800000#32
  let main_v5 : FVec F S1536x512 .f32 := broadcastInDim S1536x512 ![] bcast_S_S1536x512 main_cst_0
  let main_v6 : IVec S1536x512 1 := cmpf .olt main_v4 main_v5
  let main_c_1 : IVec S_ 1 := constantI S_ 1 1#1
  let main_v7 : IVec S_ 1 := (fun x v => Host.reduce IntOp.andi x v reducesTo_S1536x512_S_d0_1 h_S_) main_v6 main_c_1
  let main_v8 : IVec S_ 1 := andi main_v3 main_v7
  let main_v9 : FVec F S512x512 .f32 := Host.absf main_arg2
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_v13 main_v16
-- ==== Kernel.lean ====
abbrev S16x512x64x64 : Shape := ⟨4, ![16, 512, 64, 64]⟩
abbrev S1536x512 : Shape := ⟨2, ![1536, 512]⟩
abbrev S512x512 : Shape := ⟨2, ![512, 512]⟩
abbrev S512 : Shape := ⟨1, ![512]⟩
abbrev S16x512x4096 : Shape := ⟨3, ![16, 512, 4096]⟩
abbrev S16x64x32768 : Shape := ⟨3, ![16, 64, 32768]⟩
abbrev S1x512x4096 : Shape := ⟨3, ![1, 512, 4096]⟩
abbrev S1x64x32768 : Shape := ⟨3, ![1, 64, 32768]⟩
abbrev S512x4096 : Shape := ⟨2, ![512, 4096]⟩
abbrev S64x512 : Shape := ⟨2, ![64, 512]⟩
abbrev S64x4096 : Shape := ⟨2, ![64, 4096]⟩
abbrev S64 : Shape := ⟨1, ![64]⟩
abbrev S64x1 : Shape := ⟨2, ![64, 1]⟩
abbrev S64x64 : Shape := ⟨2, ![64, 64]⟩
abbrev S1x64x4096 : Shape := ⟨3, ![1, 64, 4096]⟩
abbrev S16x4096x512 : Shape := ⟨3, ![16, 4096, 512]⟩
abbrev S512x1 : Shape := ⟨2, ![512, 1]⟩
abbrev S1x1024x512 : Shape := ⟨3, ![1, 1024, 512]⟩
abbrev S1x512x1024 : Shape := ⟨3, ![1, 512, 1024]⟩
abbrev S1024x512 : Shape := ⟨2, ![1024, 512]⟩
abbrev S512x1024 : Shape := ⟨2, ![512, 1024]⟩

abbrev nBuf : Space → Nat
  | .hbm => 13
  | .vmem => 11
  | .smem => 0
  | _ => 0

abbrev bufTy : (tb : Table) → Fin (tcTables nBuf tb) → BufTy
  | .hbm, ⟨0, _⟩ => ⟨S16x512x64x64, .f32⟩
  | .hbm, ⟨1, _⟩ => ⟨S1536x512, .f32⟩
  | .hbm, ⟨2, _⟩ => ⟨S512x512, .f32⟩
  | .hbm, ⟨3, _⟩ => ⟨S512, .f32⟩
  | .hbm, ⟨4, _⟩ => ⟨S16x512x4096, .f32⟩
  | .hbm, ⟨5, _⟩ => ⟨S16x512x4096, .bf16⟩
  | .hbm, ⟨6, _⟩ => ⟨S1536x512, .bf16⟩
  | .hbm, ⟨7, _⟩ => ⟨S16x64x32768, .bf16⟩
  | .hbm, ⟨8, _⟩ => ⟨S16x4096x512, .bf16⟩
  | .hbm, ⟨9, _⟩ => ⟨S512x512, .bf16⟩
  | .hbm, ⟨10, _⟩ => ⟨S512x1, .f32⟩
  | .hbm, ⟨11, _⟩ => ⟨S16x512x4096, .f32⟩
  | .hbm, ⟨12, _⟩ => ⟨S16x512x64x64, .f32⟩
  | .local _ .vmem, ⟨0, _⟩ => ⟨S1x512x4096, .bf16⟩
  | .local _ .vmem, ⟨1, _⟩ => ⟨S1x512x4096, .bf16⟩
  | .local _ .vmem, ⟨2, _⟩ => ⟨S1536x512, .bf16⟩
  | .local _ .vmem, ⟨3, _⟩ => ⟨S1x64x32768, .bf16⟩
  | .local _ .vmem, ⟨4, _⟩ => ⟨S1x64x32768, .bf16⟩
  | .local _ .vmem, ⟨5, _⟩ => ⟨S1x1024x512, .bf16⟩
  | .local _ .vmem, ⟨6, _⟩ => ⟨S1x1024x512, .bf16⟩
  | .local _ .vmem, ⟨7, _⟩ => ⟨S512x512, .bf16⟩
  | .local _ .vmem, ⟨8, _⟩ => ⟨S512x1, .f32⟩
  | .local _ .vmem, ⟨9, _⟩ => ⟨S1x512x1024, .f32⟩
  | .local _ .vmem, ⟨10, _⟩ => ⟨S1x512x1024, .f32⟩
  | _, _ => ⟨S16x512x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32 : BitVec 32 := 0#32
  let c8_i32 : BitVec 32 := 8#32
  let v2 : BitVec 32 := Scalar.addi c0_i32 c8_i32
  let c1_i32 : BitVec 32 := 1#32
  ⟨c0_i32, v2, c1_i32⟩
def k0_mult1 (k0_t1 : Fin k0_t1_loop.trips) : BitVec 32 :=
  let c0_i32_4 : BitVec 32 := 0#32
  let c0_i32 : BitVec 32 := 0#32
  let c1_i32 : BitVec 32 := 1#32
  let arg4 : BitVec 32 := Scf.iv c0_i32 c1_i32 k0_t1
  let c1_i32_3 : BitVec 32 := 1#32
  let v3 : BitVec 32 := Scalar.muli arg4 c1_i32_3
  let v4 : BitVec 32 := Scalar.addi c0_i32_4 v3
  let c64_i32 : BitVec 32 := 64#32
  let v5 : BitVec 32 := Scalar.muli v4 c64_i32
  v5
def k0_mult2 (k0_t1 : Fin k0_t1_loop.trips) : BitVec 32 :=
  let c512_i32 : BitVec 32 := 512#32
  let c0_i32_4 : BitVec 32 := 0#32
  let c0_i32 : BitVec 32 := 0#32
  let c1_i32 : BitVec 32 := 1#32
  let arg4 : BitVec 32 := Scf.iv c0_i32 c1_i32 k0_t1
  let c1_i32_3 : BitVec 32 := 1#32
  let v3 : BitVec 32 := Scalar.muli arg4 c1_i32_3
  let v4 : BitVec 32 := Scalar.addi c0_i32_4 v3
  let c64_i32_5 : BitVec 32 := 64#32
  let v7 : BitVec 32 := Scalar.muli v4 c64_i32_5
  let v8 : BitVec 32 := Scalar.addi c512_i32 v7
  v8
def k0_mult3 (k0_t1 : Fin k0_t1_loop.trips) : BitVec 32 :=
  let c1024_i32 : BitVec 32 := 1024#32
  let c0_i32_4 : BitVec 32 := 0#32
  let c0_i32 : BitVec 32 := 0#32
  let c1_i32 : BitVec 32 := 1#32
  let arg4 : BitVec 32 := Scf.iv c0_i32 c1_i32 k0_t1
  let c1_i32_3 : BitVec 32 := 1#32
  let v3 : BitVec 32 := Scalar.muli arg4 c1_i32_3
  let v4 : BitVec 32 := Scalar.addi c0_i32_4 v3
  let c64_i32_6 : BitVec 32 := 64#32
  let v10 : BitVec 32 := Scalar.muli v4 c64_i32_6
  let v11 : BitVec 32 := Scalar.addi c1024_i32 v10
  v11
def k0_off1 (k0_t1 : Fin k0_t1_loop.trips) : Fin 2 → Nat :=
  let c0_i32_4 : BitVec 32 := 0#32
  let c0_i32 : BitVec 32 := 0#32
  let c1_i32 : BitVec 32 := 1#32
  let arg4 : BitVec 32 := Scf.iv c0_i32 c1_i32 k0_t1
  let c1_i32_3 : BitVec 32 := 1#32
  let v3 : BitVec 32 := Scalar.muli arg4 c1_i32_3
  let v4 : BitVec 32 := Scalar.addi c0_i32_4 v3
  let c64_i32 : BitVec 32 := 64#32
  let v5 : BitVec 32 := Scalar.muli v4 c64_i32
  let v6 : BitVec 32 := v5
  let v13 : Index := Scalar.indexCast v6
  let c0_7 : Index := 0#32
  ![v13.toNat, 0]
def k0_off2 (k0_t1 : Fin k0_t1_loop.trips) (c512_i32 : BitVec 32) : Fin 2 → Nat :=
  let c0_i32_4 : BitVec 32 := 0#32
  let c0_i32 : BitVec 32 := 0#32
  let c1_i32 : BitVec 32 := 1#32
  let arg4 : BitVec 32 := Scf.iv c0_i32 c1_i32 k0_t1
  let c1_i32_3 : BitVec 32 := 1#32
  let v3 : BitVec 32 := Scalar.muli arg4 c1_i32_3
  let v4 : BitVec 32 := Scalar.addi c0_i32_4 v3
  let c64_i32_5 : BitVec 32 := 64#32
  let v7 : BitVec 32 := Scalar.muli v4 c64_i32_5
  let v8 : BitVec 32 := Scalar.addi c512_i32 v7
  let v9 : BitVec 32 := v8
  let v16 : Index := Scalar.indexCast v9
  let c0_8 : Index := 0#32
  ![v16.toNat, 0]
def k0_mult4 (k0_t1 : Fin k0_t1_loop.trips) : BitVec 32 :=
  let c0_i32_4 : BitVec 32 := 0#32
  let c0_i32 : BitVec 32 := 0#32
  let c1_i32 : BitVec 32 := 1#32
  let arg4 : BitVec 32 := Scf.iv c0_i32 c1_i32 k0_t1
  let c1_i32_3 : BitVec 32 := 1#32
  let v3 : BitVec 32 := Scalar.muli arg4 c1_i32_3
  let v4 : BitVec 32 := Scalar.addi c0_i32_4 v3
  let c4096_i32 : BitVec 32 := 4096#32
  let v58 : BitVec 32 := Scalar.muli v4 c4096_i32
  v58
def k0_off3 (k0_t1 : Fin k0_t1_loop.trips) : Fin 3 → Nat :=
  let c0_21 : Index := 0#32
  let c0_22 : Index := 0#32
  let c0_i32_4 : BitVec 32 := 0#32
  let c0_i32 : BitVec 32 := 0#32
  let c1_i32 : BitVec 32 := 1#32
  let arg4 : BitVec 32 := Scf.iv c0_i32 c1_i32 k0_t1
  let c1_i32_3 : BitVec 32 := 1#32
  let v3 : BitVec 32 := Scalar.muli arg4 c1_i32_3
  let v4 : BitVec 32 := Scalar.addi c0_i32_4 v3
  let c4096_i32 : BitVec 32 := 4096#32
  let v58 : BitVec 32 := Scalar.muli v4 c4096_i32
  let v59 : BitVec 32 := v58
  let v61 : Index := Scalar.indexCast v59
  ![0, 0, v61.toNat]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1536x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x64x32768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![16, 4], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage1_0 : Fin 2 → Memref sig .tc .vmem S1x1024x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S512x512 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S512x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S1x512x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

class Facts₀ : Prop where
  shapeCasts_S16x512x64x64_S16x512x4096 : S16x512x64x64.ShapeCasts S16x512x4096
  bitsLt_bf16_f32 : FTy.bits .bf16 < FTy.bits .f32
  inb_S1x512x4096_S1x512x4096_0_0_0 : ∀ a, (![0, 0, 0] : Fin 3 → Nat) a + S1x512x4096.size a ≤ S1x512x4096.size a
  h_S1x512x4096 : 0 < S1x512x4096.numel
  shapeCasts_S1x512x4096_S512x4096 : S1x512x4096.ShapeCasts S512x4096
  h_S64x512 : 0 < S64x512.numel
  shapeCasts_S64x512_S64x512 : S64x512.ShapeCasts S64x512
  reduces_S64x4096_S64 : S64x4096.Reduces [1] S64
  shapeCasts_S64_S64x1 : S64.ShapeCasts S64x1
  broadcasts_S64x1_S64x4096 : S64x1.Broadcasts S64x4096
  reduces_S64x64_S64 : S64x64.Reduces [1] S64
  broadcasts_S64x1_S64x64 : S64x1.Broadcasts S64x64
  h_S1x64x4096 : 0 < S1x64x4096.numel
  shapeCasts_S1x64x4096_S64x4096 : S1x64x4096.ShapeCasts S64x4096
  shapeCasts_S64x4096_S1x64x4096 : S64x4096.ShapeCasts S1x64x4096
  shapeCasts_S16x64x32768_S16x4096x512 : S16x64x32768.ShapeCasts S16x4096x512
  shapeCasts_S512_S512x1 : S512.ShapeCasts S512x1
  inb_S1x1024x512_S1x1024x512_0_0_0 : ∀ a, (![0, 0, 0] : Fin 3 → Nat) a + S1x1024x512.size a ≤ S1x1024x512.size a
  h_S1x1024x512 : 0 < S1x1024x512.numel
  shapeCasts_S1x1024x512_S1024x512 : S1x1024x512.ShapeCasts S1024x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S512x1_S512x1_0_0 : ∀ a, (![0, 0] : Fin 2 → Nat) a + S512x1.size a ≤ S512x1.size a
  h_S512x1 : 0 < S512x1.numel
  shapeCasts_S512x1_S512x1 : S512x1.ShapeCasts S512x1
  broadcasts_S512x1_S512x1024 : S512x1.Broadcasts S512x1024
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  shapeCasts_S512x1024_S1x512x1024 : S512x1024.ShapeCasts S1x512x1024
  shapeCasts_S16x512x4096_S16x512x64x64 : S16x512x4096.ShapeCasts S16x512x64x64
  dot_S64x512_S512x4096_S64x4096_1_0_0_1_n_n_wf : DotDims.WF S64x512 S512x4096 S64x4096 [1] [0] [0] [1] [] []
  dot_S64x4096_S64x4096_S64x64_1_1_0_0_n_n_wf : DotDims.WF S64x4096 S64x4096 S64x64 [1] [1] [0] [0] [] []
  dot_S64x64_S64x4096_S64x4096_1_0_0_1_n_n_wf : DotDims.WF S64x64 S64x4096 S64x4096 [1] [0] [0] [1] [] []
  dot_S512x512_S1024x512_S512x1024_1_1_0_0_n_n_wf : DotDims.WF S512x512 S1024x512 S512x1024 [1] [1] [0] [0] [] []
  hrank0 : 0 < grid0.rank
  k0_t1_ok : k0_t1_loop.OK
  k0_mult1_dvd : ∀ k0_t1 : Fin k0_t1_loop.trips, 16 ∣ (k0_mult1 k0_t1).toNat
  k0_mult2_dvd : ∀ k0_t1 : Fin k0_t1_loop.trips, 16 ∣ (k0_mult2 k0_t1).toNat
  k0_mult3_dvd : ∀ k0_t1 : Fin k0_t1_loop.trips, 16 ∣ (k0_mult3 k0_t1).toNat
  k0_off1_inb : ∀ k0_t1 : Fin k0_t1_loop.trips, ∀ a, (k0_off1 k0_t1) a + S64x512.size a ≤ S1536x512.size a
  k0_off2_inb : ∀ k0_t1 : Fin k0_t1_loop.trips, ∀ (r : Fin 2), ∀ a, (k0_off2 k0_t1 (BitVec.ofNat 32 (512 + 512 * r.val))) a + S64x512.size a ≤ S1536x512.size a
  k0_mult4_dvd : ∀ k0_t1 : Fin k0_t1_loop.trips, 128 ∣ (k0_mult4 k0_t1).toNat
  k0_off3_inb : ∀ k0_t1 : Fin k0_t1_loop.trips, ∀ a, (k0_off3 k0_t1) a + S1x64x4096.size a ≤ S1x64x32768.size a
  k0_off3_packedbf16 : ∀ k0_t1 : Fin k0_t1_loop.trips, (Rect.unit (s := S1x64x32768) (k0_off3 k0_t1) S1x64x4096.size (k0_off3_inb k0_t1)).PackedRows (EltTy.packing .bf16)
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x4096.size a ≤ S16x512x4096.size a
  hwx0_0 : ∀ i : grid0.Coords, EltTy.bits .bf16 = 32 ∨ (Rect.block (s := S16x512x4096) S1x512x4096.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1536x512.size a ≤ S1536x512.size a
  hwx0_1 : ∀ i : grid0.Coords, EltTy.bits .bf16 = 32 ∨ (Rect.block (s := S1536x512) S1536x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x64x32768.size a ≤ S16x64x32768.size a
  hwx0_2 : ∀ i : grid0.Coords, EltTy.bits .bf16 = 32 ∨ (Rect.block (s := S16x64x32768) S1x64x32768.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1024x512.size a ≤ S16x4096x512.size a
  hwx1_0 : ∀ i : grid1.Coords, EltTy.bits .bf16 = 32 ∨ (Rect.block (s := S16x4096x512) S1x1024x512.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S512x512.size a ≤ S512x512.size a
  hwx1_1 : ∀ i : grid1.Coords, EltTy.bits .bf16 = 32 ∨ (Rect.block (s := S512x512) S512x512.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S512x1.size a ≤ S512x1.size a
  hwx1_2 : ∀ i : grid1.Coords, EltTy.bits .f32 = 32 ∨ (Rect.block (s := S512x1) S512x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x512x1024.size a ≤ S16x512x4096.size a
  hwx1_3 : ∀ i : grid1.Coords, EltTy.bits .f32 = 32 ∨ (Rect.block (s := S16x512x4096) S1x512x1024.size (cc1_transform_3 i) (hinb1_3 i)).WholeWords (EltTy.packing .f32)

variable [Facts₀]

def dot_S64x512_S512x4096_S64x4096_1_0_0_1_n_n : DotDims S64x512 S512x4096 S64x4096 where
  lhsContracting := [1]
  rhsContracting := [0]
  lhsNonContracting := [0]
  rhsNonContracting := [1]
  lhsBatch := []
  rhsBatch := []
  wf := dot_S64x512_S512x4096_S64x4096_1_0_0_1_n_n_wf
def dot_S64x4096_S64x4096_S64x64_1_1_0_0_n_n : DotDims S64x4096 S64x4096 S64x64 where
  lhsContracting := [1]
  rhsContracting := [1]
  lhsNonContracting := [0]
  rhsNonContracting := [0]
  lhsBatch := []
  rhsBatch := []
  wf := dot_S64x4096_S64x4096_S64x64_1_1_0_0_n_n_wf
def dot_S64x64_S64x4096_S64x4096_1_0_0_1_n_n : DotDims S64x64 S64x4096 S64x4096 where
  lhsContracting := [1]
  rhsContracting := [0]
  lhsNonContracting := [0]
  rhsNonContracting := [1]
  lhsBatch := []
  rhsBatch := []
  wf := dot_S64x64_S64x4096_S64x4096_1_0_0_1_n_n_wf
def dot_S512x512_S1024x512_S512x1024_1_1_0_0_n_n : DotDims S512x512 S1024x512 S512x1024 where
  lhsContracting := [1]
  rhsContracting := [1]
  lhsNonContracting := [0]
  rhsNonContracting := [0]
  lhsBatch := []
  rhsBatch := []
  wf := dot_S512x512_S1024x512_S512x1024_1_1_0_0_n_n_wf

abbrev win0_0 : Pipeline.Window sig grid0 :=
  Pipeline.Window.ofSpec (Memref.whole main_v1) S1x512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1536x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x64x32768.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v4) S1x1024x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v5) S512x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v6) S512x1.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v7) S1x512x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S16x512x64x64 : Shape := ⟨4, ![16, 512, 64, 64]⟩
abbrev S1536x512 : Shape := ⟨2, ![1536, 512]⟩
abbrev S512x512 : Shape := ⟨2, ![512, 512]⟩
abbrev S512 : Shape := ⟨1, ![512]⟩
abbrev S16x64x64x512 : Shape := ⟨4, ![16, 64, 64, 512]⟩
abbrev S16x64x64x1536 : Shape := ⟨4, ![16, 64, 64, 1536]⟩
abbrev S16x1536x64x64 : Shape := ⟨4, ![16, 1536, 64, 64]⟩
abbrev S16x3x8x64x4096 : Shape := ⟨5, ![16, 3, 8, 64, 4096]⟩
abbrev S16x1x8x64x4096 : Shape := ⟨5, ![16, 1, 8, 64, 4096]⟩
abbrev S16x8x64x4096 : Shape := ⟨4, ![16, 8, 64, 4096]⟩
abbrev S_ : Shape := ⟨0, ![]⟩
abbrev S16x8x64 : Shape := ⟨3, ![16, 8, 64]⟩
abbrev S16x8x64x1 : Shape := ⟨4, ![16, 8, 64, 1]⟩
abbrev S16x8x64x64 : Shape := ⟨4, ![16, 8, 64, 64]⟩
abbrev S16x64x8x4096 : Shape := ⟨4, ![16, 64, 8, 4096]⟩
abbrev S1x1x1x512 : Shape := ⟨4, ![1, 1, 1, 512]⟩

abbrev nBuf : Space → Nat
  | .hbm => 60
  | .vmem => 0
  | .smem => 0
  | _ => 0

abbrev bufTy : (tb : Table) → Fin (tcTables nBuf tb) → BufTy
  | .hbm, ⟨0, _⟩ => ⟨S16x512x64x64, .f32⟩
  | .hbm, ⟨1, _⟩ => ⟨S1536x512, .f32⟩
  | .hbm, ⟨2, _⟩ => ⟨S512x512, .f32⟩
  | .hbm, ⟨3, _⟩ => ⟨S512, .f32⟩
  | .hbm, ⟨4, _⟩ => ⟨S16x64x64x512, .f32⟩
  | .hbm, ⟨5, _⟩ => ⟨S16x64x64x1536, .f32⟩
  | .hbm, ⟨6, _⟩ => ⟨S16x1536x64x64, .f32⟩
  | .hbm, ⟨7, _⟩ => ⟨S16x3x8x64x4096, .f32⟩
  | .hbm, ⟨8, _⟩ => ⟨S16x1x8x64x4096, .f32⟩
  | .hbm, ⟨9, _⟩ => ⟨S16x8x64x4096, .f32⟩
  | .hbm, ⟨10, _⟩ => ⟨S16x1x8x64x4096, .f32⟩
  | .hbm, ⟨11, _⟩ => ⟨S16x8x64x4096, .f32⟩
  | .hbm, ⟨12, _⟩ => ⟨S16x1x8x64x4096, .f32⟩
  | .hbm, ⟨13, _⟩ => ⟨S16x8x64x4096, .f32⟩
  | .hbm, ⟨14, _⟩ => ⟨S16x8x64x4096, .f32⟩
  | .hbm, ⟨15, _⟩ => ⟨S_, .f32⟩
  | .hbm, ⟨16, _⟩ => ⟨S16x8x64, .f32⟩
  | .hbm, ⟨17, _⟩ => ⟨S16x8x64x1, .f32⟩
  | .hbm, ⟨18, _⟩ => ⟨S16x8x64x1, .f32⟩
  | .hbm, ⟨19, _⟩ => ⟨S_, .f32⟩
  | .hbm, ⟨20, _⟩ => ⟨S16x8x64x1, .f32⟩
  | .hbm, ⟨21, _⟩ => ⟨S16x8x64x1, .f32⟩
  | .hbm, ⟨22, _⟩ => ⟨S16x8x64x4096, .f32⟩
  | .hbm, ⟨23, _⟩ => ⟨S16x8x64x4096, .f32⟩
  | .hbm, ⟨24, _⟩ => ⟨S16x8x64x4096, .f32⟩
  | .hbm, ⟨25, _⟩ => ⟨S_, .f32⟩
  | .hbm, ⟨26, _⟩ => ⟨S16x8x64, .f32⟩
  | .hbm, ⟨27, _⟩ => ⟨S16x8x64x1, .f32⟩
  | .hbm, ⟨28, _⟩ => ⟨S16x8x64x1, .f32⟩
  | .hbm, ⟨29, _⟩ => ⟨S_, .f32⟩
  | .hbm, ⟨30, _⟩ => ⟨S16x8x64x1, .f32⟩
  | .hbm, ⟨31, _⟩ => ⟨S16x8x64x1, .f32⟩
  | .hbm, ⟨32, _⟩ => ⟨S16x8x64x4096, .f32⟩
  | .hbm, ⟨33, _⟩ => ⟨S16x8x64x4096, .f32⟩
  | .hbm, ⟨34, _⟩ => ⟨S16x8x64x64, .f32⟩
  | .hbm, ⟨35, _⟩ => ⟨S_, .f32⟩
  | .hbm, ⟨36, _⟩ => ⟨S16x8x64x64, .f32⟩
  | .hbm, ⟨37, _⟩ => ⟨S16x8x64x64, .f32⟩
  | .hbm, ⟨38, _⟩ => ⟨S_, .f32⟩
  | .hbm, ⟨39, _⟩ => ⟨S16x8x64, .f32⟩
  | .hbm, ⟨40, _⟩ => ⟨S_, .f32⟩
  | .hbm, ⟨41, _⟩ => ⟨S16x8x64, .f32⟩
  | .hbm, ⟨42, _⟩ => ⟨S16x8x64, .f32⟩
  | .hbm, ⟨43, _⟩ => ⟨S16x8x64x1, .f32⟩
  | .hbm, ⟨44, _⟩ => ⟨S16x8x64x64, .f32⟩
  | .hbm, ⟨45, _⟩ => ⟨S16x8x64x64, .f32⟩
  | .hbm, ⟨46, _⟩ => ⟨S16x8x64x64, .f32⟩
  | .hbm, ⟨47, _⟩ => ⟨S_, .f32⟩
  | .hbm, ⟨48, _⟩ => ⟨S16x8x64, .f32⟩
  | .hbm, ⟨49, _⟩ => ⟨S16x8x64x1, .f32⟩
  | .hbm, ⟨50, _⟩ => ⟨S16x8x64x64, .f32⟩
  | .hbm, ⟨51, _⟩ => ⟨S16x8x64x64, .f32⟩
  | .hbm, ⟨52, _⟩ => ⟨S16x8x64x4096, .f32⟩
  | .hbm, ⟨53, _⟩ => ⟨S16x64x8x4096, .f32⟩
  | .hbm, ⟨54, _⟩ => ⟨S16x64x64x512, .f32⟩
  | .hbm, ⟨55, _⟩ => ⟨S16x64x64x512, .f32⟩
  | .hbm, ⟨56, _⟩ => ⟨S1x1x1x512, .f32⟩
  | .hbm, ⟨57, _⟩ => ⟨S16x64x64x512, .f32⟩
  | .hbm, ⟨58, _⟩ => ⟨S16x64x64x512, .f32⟩
  | .hbm, ⟨59, _⟩ => ⟨S16x512x64x64, .f32⟩
  | _, _ => ⟨S16x512x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_0 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_1 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_2 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_cst_3 : Ref sig .tc := ⟨.hbm, 35, rfl⟩
abbrev main_v27 : Ref sig .tc := ⟨.hbm, 36, rfl⟩
abbrev main_v28 : Ref sig .tc := ⟨.hbm, 37, rfl⟩
abbrev main_cst_4 : Ref sig .tc := ⟨.hbm, 38, rfl⟩
abbrev main_v29 : Ref sig .tc := ⟨.hbm, 39, rfl⟩
abbrev main_cst_5 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_cst_6 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩

abbrev nD : Nat := 1
abbrev τ : Topo := Topo.v7x

variable {F : FTy → Type} [FloatOps F]

class Facts₀ : Prop where
  transposes_S16x512x64x64_S16x64x64x512_0_2_3_1 : S16x512x64x64.Transposes [0, 2, 3, 1] S16x64x64x512
  transposes_S16x64x64x1536_S16x1536x64x64_0_3_1_2 : S16x64x64x1536.Transposes [0, 3, 1, 2] S16x1536x64x64
  shapeCasts_S16x1536x64x64_S16x3x8x64x4096 : S16x1536x64x64.ShapeCasts S16x3x8x64x4096
  slices_S16x3x8x64x4096_S16x1x8x64x4096_0_0_0_0_0 : S16x3x8x64x4096.Slices ![0, 0, 0, 0, 0] S16x1x8x64x4096
  shapeCasts_S16x1x8x64x4096_S16x8x64x4096 : S16x1x8x64x4096.ShapeCasts S16x8x64x4096
  slices_S16x3x8x64x4096_S16x1x8x64x4096_0_1_0_0_0 : S16x3x8x64x4096.Slices ![0, 1, 0, 0, 0] S16x1x8x64x4096
  slices_S16x3x8x64x4096_S16x1x8x64x4096_0_2_0_0_0 : S16x3x8x64x4096.Slices ![0, 2, 0, 0, 0] S16x1x8x64x4096
  reducesTo_S16x8x64x4096_S16x8x64_d3 : S16x8x64x4096.ReducesTo [3] S16x8x64
  h_S_ : 0 < S_.numel
  bcast_S16x8x64_S16x8x64x1_0_1_2 : S16x8x64.BroadcastsInDim S16x8x64x1 (![0, 1, 2] : Fin 3 → Fin S16x8x64x1.rank)
  bcast_S_S16x8x64x1 : S_.BroadcastsInDim S16x8x64x1 (![] : Fin 0 → Fin S16x8x64x1.rank)
  bcast_S16x8x64x1_S16x8x64x4096_0_1_2_3 : S16x8x64x1.BroadcastsInDim S16x8x64x4096 (![0, 1, 2, 3] : Fin 4 → Fin S16x8x64x4096.rank)
  bcast_S_S16x8x64x64 : S_.BroadcastsInDim S16x8x64x64 (![] : Fin 0 → Fin S16x8x64x64.rank)
  reducesTo_S16x8x64x64_S16x8x64_d3 : S16x8x64x64.ReducesTo [3] S16x8x64
  bcast_S_S16x8x64 : S_.BroadcastsInDim S16x8x64 (![] : Fin 0 → Fin S16x8x64.rank)
  bcast_S16x8x64x1_S16x8x64x64_0_1_2_3 : S16x8x64x1.BroadcastsInDim S16x8x64x64 (![0, 1, 2, 3] : Fin 4 → Fin S16x8x64x64.rank)
  transposes_S16x8x64x4096_S16x64x8x4096_0_2_1_3 : S16x8x64x4096.Transposes [0, 2, 1, 3] S16x64x8x4096
  shapeCasts_S16x64x8x4096_S16x64x64x512 : S16x64x8x4096.ShapeCasts S16x64x64x512
  bcast_S512_S1x1x1x512_3 : S512.BroadcastsInDim S1x1x1x512 (![3] : Fin 1 → Fin S1x1x1x512.rank)
  bcast_S1x1x1x512_S16x64x64x512_0_1_2_3 : S1x1x1x512.BroadcastsInDim S16x64x64x512 (![0, 1, 2, 3] : Fin 4 → Fin S16x64x64x512.rank)
  transposes_S16x64x64x512_S16x512x64x64_0_3_1_2 : S16x64x64x512.Transposes [0, 3, 1, 2] S16x512x64x64
  dot_S16x64x64x512_S1536x512_S16x64x64x1536_3_1_012_0_n_n_wf : DotDims.WF S16x64x64x512 S1536x512 S16x64x64x1536 [3] [1] [0, 1, 2] [0] [] []
  dot_S16x8x64x4096_S16x8x64x4096_S16x8x64x64_3_3_2_2_01_01_wf : DotDims.WF S16x8x64x4096 S16x8x64x4096 S16x8x64x64 [3] [3] [2] [2] [0, 1] [0, 1]
  dot_S16x8x64x64_S16x8x64x4096_S16x8x64x4096_3_2_2_3_01_01_wf : DotDims.WF S16x8x64x64 S16x8x64x4096 S16x8x64x4096 [3] [2] [2] [3] [0, 1] [0, 1]
  dot_S16x64x64x512_S512x512_S16x64x64x512_3_1_012_0_n_n_wf : DotDims.WF S16x64x64x512 S512x512 S16x64x64x512 [3] [1] [0, 1, 2] [0] [] []

variable [Facts₀]

def dot_S16x64x64x512_S1536x512_S16x64x64x1536_3_1_012_0_n_n : DotDims S16x64x64x512 S1536x512 S16x64x64x1536 where
  lhsContracting := [3]
  rhsContracting := [1]
  lhsNonContracting := [0, 1, 2]
  rhsNonContracting := [0]
  lhsBatch := []
  rhsBatch := []
  wf := dot_S16x64x64x512_S1536x512_S16x64x64x1536_3_1_012_0_n_n_wf
def dot_S16x8x64x4096_S16x8x64x4096_S16x8x64x64_3_3_2_2_01_01 : DotDims S16x8x64x4096 S16x8x64x4096 S16x8x64x64 where
  lhsContracting := [3]
  rhsContracting := [3]
  lhsNonContracting := [2]
  rhsNonContracting := [2]
  lhsBatch := [0, 1]
  rhsBatch := [0, 1]
  wf := dot_S16x8x64x4096_S16x8x64x4096_S16x8x64x64_3_3_2_2_01_01_wf
def dot_S16x8x64x64_S16x8x64x4096_S16x8x64x4096_3_2_2_3_01_01 : DotDims S16x8x64x64 S16x8x64x4096 S16x8x64x4096 where
  lhsContracting := [3]
  rhsContracting := [2]
  lhsNonContracting := [2]
  rhsNonContracting := [3]
  lhsBatch := [0, 1]
  rhsBatch := [0, 1]
  wf := dot_S16x8x64x64_S16x8x64x4096_S16x8x64x4096_3_2_2_3_01_01_wf
def dot_S16x64x64x512_S512x512_S16x64x64x512_3_1_012_0_n_n : DotDims S16x64x64x512 S512x512 S16x64x64x512 where
  lhsContracting := [3]
  rhsContracting := [1]
  lhsNonContracting := [0, 1, 2]
  rhsNonContracting := [0]
  lhsBatch := []
  rhsBatch := []
  wf := dot_S16x64x64x512_S512x512_S16x64x64x512_3_1_012_0_n_n_wf

class Facts : Prop extends Facts₀ where

variable [Facts]
-- ==== Proof.KRun.lean ====
/-
  The idealized kernel program's run with its result named.  The program is five segments: three host operations
  (a reshape and two changes of float format), the attention region, three host operations (a reshape, a change of
  format, a reshape), the projection region, and a last reshape.  Every weakly fair execution terminates without a
  fault; the final state holds the four argument arrays as launched and the result array at the contents the last
  segment leaves, `W5` read at the result's buffer — the fold of the segments' effects over the launch memory.
-/
import proofs.«102795_j66219805769965_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- The run: termination, no fault, the result array at the last boundary's contents and the arguments unchanged. -/
theorem run : θ_run defs (onTc (τ := τ) (main (F := F))) ⟨m, fun _ => 0, ρ⟩ (fun r => ∀ c : Dev nD,
      r.2.mem ((c.tc : Thread nD τ).loc main_v8) = W5 m ρ c (Proc.devRef .tc main_v8)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v8 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c)⟩)

end Cert.KernelIdeal.RunValue

end
-- ==== Proof.Spec.lean ====
/-
  Channel attention, as one function of the four argument arrays.

  For a batch entry `b` the tokens are the 512 × 4096 matrix `x[k, n]` (the two spatial axes read as one,
  `n = 64·h + w`).  For each of the 8 heads the rows `64·head … 64·head + 63` of the three 512-row parts of the
  1536 × 512 weight give three 64 × 4096 projections (a row of the weight against a column of the tokens).  The
  first two are divided, row by row, by the larger of the row's Euclidean norm and a small constant; the 64 × 64
  matrix of inner products of their rows, times 1/8, goes through a softmax along its rows (the row maximum
  subtracted first); the softmax matrix times the third projection is the head's 64 × 4096 result.  The 8
  results, laid out row-major as (channel-in-head, head, token), are re-read as a 4096 × 512 matrix, multiplied
  by the second 512 × 512 weight (contracting the 512 axis), and the bias is added per output channel.

  Everything here is over the extended reals, index by index; no array shape of a program enters.
-/
import Idealize.ShloMosaic.PureOps.Ideal
import Idealize.ShloMosaic.Lib.ValueIdx

noncomputable section

namespace Cert.Attn

open Idealize.ShloMosaic

/-- The small constant under the norm, the scale 1/8 and the start value of the row maximum, as the f32 words both
    programs carry. -/
abbrev epsLit : EReal := Ideal.ofBits .f32 0x2B8CBCCC#32
abbrev scaleLit : EReal := Ideal.ofBits .f32 0x3E000000#32
abbrev negInfLit : EReal := Ideal.ofBits .f32 0xFF800000#32

/-- A 64-row weight slice against the token matrix: entry (c, n) is the sum over k of w[c, k] · x[k, n]. -/
def proj (w : Fin 64 → Fin 512 → EReal) (x : Fin 512 → Fin 4096 → EReal) (c : Fin 64) (n : Fin 4096) : EReal :=
  ∑ k : Fin 512, w c k * x k n

/-- The divisor of row c: the larger of the square root of the row's sum of squares and the small constant. -/
def rowNorm (t : Fin 64 → Fin 4096 → EReal) (c : Fin 64) : EReal :=
  max (Ideal.sqrt (∑ n : Fin 4096, t c n * t c n)) epsLit

/-- The row-normalised matrix. -/
def normalized (t : Fin 64 → Fin 4096 → EReal) (c : Fin 64) (n : Fin 4096) : EReal :=
  Ideal.div (t c n) (rowNorm t c)

/-- Scaled inner products of the normalised rows. -/
def logits (q k : Fin 64 → Fin 4096 → EReal) (c d : Fin 64) : EReal :=
  (∑ n : Fin 4096, normalized q c n * normalized k d n) * scaleLit

/-- The maximum of row c (a fold of `max` from the start value). -/
def rowMax (a : Fin 64 → Fin 64 → EReal) (c : Fin 64) : EReal :=
  (Finset.univ : Finset (Fin 64)).fold max negInfLit (a c)

/-- The exponentials of a row's entries minus the row maximum. -/
def expo (a : Fin 64 → Fin 64 → EReal) (c d : Fin 64) : EReal :=
  Ideal.exp (a c d - rowMax a c)

/-- The softmax along rows. -/
def softmax (a : Fin 64 → Fin 64 → EReal) (c d : Fin 64) : EReal :=
  Ideal.div (expo a c d) (∑ e : Fin 64, expo a c e)

/-- One head: softmax of the logits of the first two projections, times the third projection. -/
def head (wq wk wv : Fin 64 → Fin 512 → EReal) (x : Fin 512 → Fin 4096 → EReal) (c : Fin 64) (n : Fin 4096) : EReal :=
  ∑ d : Fin 64, softmax (logits (proj wq x) (proj wk x)) c d * proj wv x d n

/-- Rows 512·s + 64·h … of the 1536-row weight: part s (0, 1, 2), head h. -/
def wslice (W : Fin 1536 → Fin 512 → EReal) (s : Fin 3) (h : Fin 8) (c : Fin 64) (k : Fin 512) : EReal :=
  W ⟨s.val * 512 + h.val * 64 + c.val, by have := s.isLt; have := h.isLt; have := c.isLt; omega⟩ k

/-- The tokens of batch entry b: the two spatial axes read as one. -/
def tokens (X : Fin 16 → Fin 512 → Fin 64 → Fin 64 → EReal) (b : Fin 16) (k : Fin 512) (n : Fin 4096) : EReal :=
  X b k ⟨n.val / 64, by have := n.isLt; omega⟩ ⟨n.val % 64, by omega⟩

/-- Head h of batch entry b. -/
def attn (X : Fin 16 → Fin 512 → Fin 64 → Fin 64 → EReal) (W : Fin 1536 → Fin 512 → EReal) (b : Fin 16) (h : Fin 8) :
    Fin 64 → Fin 4096 → EReal :=
  head (wslice W 0 h) (wslice W 1 h) (wslice W 2 h) (tokens X b)

/-- The heads' results laid out row-major as (channel-in-head, head, token) and re-read as 4096 × 512: position
    512·n' + c' of that layout. -/
def mixed (X : Fin 16 → Fin 512 → Fin 64 → Fin 64 → EReal) (W : Fin 1536 → Fin 512 → EReal) (b : Fin 16)
    (n' : Fin 4096) (c' : Fin 512) : EReal :=
  attn X W b ⟨(n'.val * 512 + c'.val) / 4096 % 8, by omega⟩
    ⟨(n'.val * 512 + c'.val) / 32768, by have := n'.isLt; have := c'.isLt; omega⟩
    ⟨(n'.val * 512 + c'.val) % 4096, by omega⟩

/-- The output projection with its bias, channel-major. -/
def out (X : Fin 16 → Fin 512 → Fin 64 → Fin 64 → EReal) (W : Fin 1536 → Fin 512 → EReal)
    (Wp : Fin 512 → Fin 512 → EReal) (Bp : Fin 512 → EReal) (b : Fin 16) (d : Fin 512) (n' : Fin 4096) : EReal :=
  (∑ c' : Fin 512, Wp d c' * mixed X W b n' c') + Bp d

/-- The arrays read through their coordinates. -/
def cur4 (x : (⟨4, ![16, 512, 64, 64]⟩ : Shape).Idx → EReal) : Fin 16 → Fin 512 → Fin 64 → Fin 64 → EReal :=
  fun a b c d => x (ValueIdx.ix4 a b c d)
def cur2w (x : (⟨2, ![1536, 512]⟩ : Shape).Idx → EReal) : Fin 1536 → Fin 512 → EReal :=
  fun a b => x (ValueIdx.ix2 a b)
def cur2p (x : (⟨2, ![512, 512]⟩ : Shape).Idx → EReal) : Fin 512 → Fin 512 → EReal :=
  fun a b => x (ValueIdx.ix2 a b)
def cur1 (x : (⟨1, ![512]⟩ : Shape).Idx → EReal) : Fin 512 → EReal :=
  fun a => x (ValueIdx.ix1 a)

/-- The whole result, channel-major over the two spatial axes: entry (b, d, h, w) is `out` at token 64·h + w. -/
def G (x0 : (⟨4, ![16, 512, 64, 64]⟩ : Shape).Idx → EReal) (x1 : (⟨2, ![1536, 512]⟩ : Shape).Idx → EReal)
    (x2 : (⟨2, ![512, 512]⟩ : Shape).Idx → EReal) (x3 : (⟨1, ![512]⟩ : Shape).Idx → EReal) :
    (⟨4, ![16, 512, 64, 64]⟩ : Shape).Idx → EReal :=
  fun i => out (cur4 x0) (cur2w x1) (cur2p x2) (cur1 x3) (i 0) (i 1)
    ⟨(i 2).val * 64 + (i 3).val, by have h2 : (i 2).val < 64 := (i 2).isLt; have h3 : (i 3).val < 64 := (i 3).isLt; omega⟩

end Cert.Attn

end
-- ==== Proof.PayProj.lean ====
/-
  A matrix product into the zero accumulator, read at one entry.

  Each of the four products of the two kernel functions contracts one axis of each operand, so its entry (c, n) is the
  sum, over the one contracted coordinate k, of the product of the left operand's entry in row c and the right
  operand's entry in row or column n.  The contraction index set of the product is identified with the range of k, and
  the two operand indices are computed coordinate by coordinate.
-/
import proofs.«102795_j66219805769965_2_alg».proof.Proof.Gen.KernelIdeal.Skeleton
import Idealize.ShloMosaic.Lib.ValueIdx
import Idealize.ShloMosaic.PureOps.Ideal.Laws

noncomputable section

namespace Cert.KernelIdeal.Pay

open Cert.KernelIdeal Cert.KernelIdeal.Gen Idealize.ShloMosaic Idealize.ShloMosaic.ValueIdx

/-- The left operand's free coordinate is the result's row. -/
theorem matmul_proj_apply_lhs (i : S64x4096.Idx) (q : dot_S64x512_S512x4096_S64x4096_1_0_0_1_n_n.contr.Idx) :
    (dot_S64x512_S512x4096_S64x4096_1_0_0_1_n_n.lhsIdx i q 0).val = (i 0).val := by
  unfold DotDims.lhsIdx
  rw [dif_neg (show ¬(0 : Fin S64x512.rank) ∈ dot_S64x512_S512x4096_S64x4096_1_0_0_1_n_n.lhsBatch by decide),
    dif_pos (show (0 : Fin S64x512.rank) ∈ dot_S64x512_S512x4096_S64x4096_1_0_0_1_n_n.lhsNonContracting by decide)]
  rfl

/-- The right operand's free coordinate is the result's column. -/
theorem matmul_proj_apply_rhs (i : S64x4096.Idx) (q : dot_S64x512_S512x4096_S64x4096_1_0_0_1_n_n.contr.Idx) :
    (dot_S64x512_S512x4096_S64x4096_1_0_0_1_n_n.rhsIdx i q 1).val = (i 1).val := by
  unfold DotDims.rhsIdx
  rw [dif_neg (show ¬(1 : Fin S512x4096.rank) ∈ dot_S64x512_S512x4096_S64x4096_1_0_0_1_n_n.rhsBatch by decide),
    dif_pos (show (1 : Fin S512x4096.rank) ∈ dot_S64x512_S512x4096_S64x4096_1_0_0_1_n_n.rhsNonContracting by decide)]
  rfl

/-- A 64 × 512 matrix times a 512 × 4096 matrix: entry (c, n) is the sum over k of l[c, k] · r[k, n]. -/
theorem matmul_proj_apply {φ₁ φ₂ : FTy} (l : FVec Ideal S64x512 φ₁) (r : FVec Ideal S512x4096 φ₂) (c : Fin 64) (n : Fin 4096) :
    matmul (F := Ideal) dot_S64x512_S512x4096_S64x4096_1_0_0_1_n_n none l r (constant (F := Ideal) S64x4096 .f32 0x00000000#32) (ix2 c n)
      = ∑ k : Fin 512, l (ix2 c k) * r (ix2 k n) := by
  show FloatOps.matmul dot_S64x512_S512x4096_S64x4096_1_0_0_1_n_n none l r (constant (F := Ideal) S64x4096 .f32 0x00000000#32) (ix2 c n) = _
  rw [Ideal.matmul_constant_zero_apply, ← Equiv.sum_comp (contrEquiv1 dot_S64x512_S512x4096_S64x4096_1_0_0_1_n_n 512 rfl rfl).symm]
  refine Finset.sum_congr rfl fun k _ => ?_
  have hk := contrEquiv1_symm_val dot_S64x512_S512x4096_S64x4096_1_0_0_1_n_n 512 rfl rfl k
  have el : dot_S64x512_S512x4096_S64x4096_1_0_0_1_n_n.lhsIdx (ix2 c n) ((contrEquiv1 dot_S64x512_S512x4096_S64x4096_1_0_0_1_n_n 512 rfl rfl).symm k) = ix2 c k := funext fun a => Fin.ext (by
    match a with
    | ⟨0, _⟩ => exact matmul_proj_apply_lhs _ _
    | ⟨1, _⟩ => exact (dot_S64x512_S512x4096_S64x4096_1_0_0_1_n_n.lhsIdx_val_of_single rfl _ _).trans hk)
  have er : dot_S64x512_S512x4096_S64x4096_1_0_0_1_n_n.rhsIdx (ix2 c n) ((contrEquiv1 dot_S64x512_S512x4096_S64x4096_1_0_0_1_n_n 512 rfl rfl).symm k) = ix2 k n := funext fun a => Fin.ext (by
    match a with
    | ⟨0, _⟩ => exact (dot_S64x512_S512x4096_S64x4096_1_0_0_1_n_n.rhsIdx_val_of_single rfl _ _).trans hk
    | ⟨1, _⟩ => exact matmul_proj_apply_rhs _ _)
  rw [el, er]

/-- The left operand's free coordinate is the result's row. -/
theorem matmul_gram_apply_lhs (i : S64x64.Idx) (q : dot_S64x4096_S64x4096_S64x64_1_1_0_0_n_n.contr.Idx) :
    (dot_S64x4096_S64x4096_S64x64_1_1_0_0_n_n.lhsIdx i q 0).val = (i 0).val := by
  unfold DotDims.lhsIdx
  rw [dif_neg (show ¬(0 : Fin S64x4096.rank) ∈ dot_S64x4096_S64x4096_S64x64_1_1_0_0_n_n.lhsBatch by decide),
    dif_pos (show (0 : Fin S64x4096.rank) ∈ dot_S64x4096_S64x4096_S64x64_1_1_0_0_n_n.lhsNonContracting by decide)]
  rfl

/-- The right operand's free coordinate is the result's column. -/
theorem matmul_gram_apply_rhs (i : S64x64.Idx) (q : dot_S64x4096_S64x4096_S64x64_1_1_0_0_n_n.contr.Idx) :
    (dot_S64x4096_S64x4096_S64x64_1_1_0_0_n_n.rhsIdx i q 0).val = (i 1).val := by
  unfold DotDims.rhsIdx
  rw [dif_neg (show ¬(0 : Fin S64x4096.rank) ∈ dot_S64x4096_S64x4096_S64x64_1_1_0_0_n_n.rhsBatch by decide),
    dif_pos (show (0 : Fin S64x4096.rank) ∈ dot_S64x4096_S64x4096_S64x64_1_1_0_0_n_n.rhsNonContracting by decide)]
  rfl

/-- Two 64 × 4096 matrices contracted along their long axis: entry (c, n) is the inner product of row c of the first and row n of the second. -/
theorem matmul_gram_apply {φ₁ φ₂ : FTy} (l : FVec Ideal S64x4096 φ₁) (r : FVec Ideal S64x4096 φ₂) (c : Fin 64) (n : Fin 64) :
    matmul (F := Ideal) dot_S64x4096_S64x4096_S64x64_1_1_0_0_n_n none l r (constant (F := Ideal) S64x64 .f32 0x00000000#32) (ix2 c n)
      = ∑ k : Fin 4096, l (ix2 c k) * r (ix2 n k) := by
  show FloatOps.matmul dot_S64x4096_S64x4096_S64x64_1_1_0_0_n_n none l r (constant (F := Ideal) S64x64 .f32 0x00000000#32) (ix2 c n) = _
  rw [Ideal.matmul_constant_zero_apply, ← Equiv.sum_comp (contrEquiv1 dot_S64x4096_S64x4096_S64x64_1_1_0_0_n_n 4096 rfl rfl).symm]
  refine Finset.sum_congr rfl fun k _ => ?_
  have hk := contrEquiv1_symm_val dot_S64x4096_S64x4096_S64x64_1_1_0_0_n_n 4096 rfl rfl k
  have el : dot_S64x4096_S64x4096_S64x64_1_1_0_0_n_n.lhsIdx (ix2 c n) ((contrEquiv1 dot_S64x4096_S64x4096_S64x64_1_1_0_0_n_n 4096 rfl rfl).symm k) = ix2 c k := funext fun a => Fin.ext (by
    match a with
    | ⟨0, _⟩ => exact matmul_gram_apply_lhs _ _
    | ⟨1, _⟩ => exact (dot_S64x4096_S64x4096_S64x64_1_1_0_0_n_n.lhsIdx_val_of_single rfl _ _).trans hk)
  have er : dot_S64x4096_S64x4096_S64x64_1_1_0_0_n_n.rhsIdx (ix2 c n) ((contrEquiv1 dot_S64x4096_S64x4096_S64x64_1_1_0_0_n_n 4096 rfl rfl).symm k) = ix2 n k := funext fun a => Fin.ext (by
    match a with
    | ⟨0, _⟩ => exact matmul_gram_apply_rhs _ _
    | ⟨1, _⟩ => exact (dot_S64x4096_S64x4096_S64x64_1_1_0_0_n_n.rhsIdx_val_of_single rfl _ _).trans hk)
  rw [el, er]

/-- The left operand's free coordinate is the result's row. -/
theorem matmul_mix_apply_lhs (i : S64x4096.Idx) (q : dot_S64x64_S64x4096_S64x4096_1_0_0_1_n_n.contr.Idx) :
    (dot_S64x64_S64x4096_S64x4096_1_0_0_1_n_n.lhsIdx i q 0).val = (i 0).val := by
  unfold DotDims.lhsIdx
  rw [dif_neg (show ¬(0 : Fin S64x64.rank) ∈ dot_S64x64_S64x4096_S64x4096_1_0_0_1_n_n.lhsBatch by decide),
    dif_pos (show (0 : Fin S64x64.rank) ∈ dot_S64x64_S64x4096_S64x4096_1_0_0_1_n_n.lhsNonContracting by decide)]
  rfl

/-- The right operand's free coordinate is the result's column. -/
theorem matmul_mix_apply_rhs (i : S64x4096.Idx) (q : dot_S64x64_S64x4096_S64x4096_1_0_0_1_n_n.contr.Idx) :
    (dot_S64x64_S64x4096_S64x4096_1_0_0_1_n_n.rhsIdx i q 1).val = (i 1).val := by
  unfold DotDims.rhsIdx
  rw [dif_neg (show ¬(1 : Fin S64x4096.rank) ∈ dot_S64x64_S64x4096_S64x4096_1_0_0_1_n_n.rhsBatch by decide),
    dif_pos (show (1 : Fin S64x4096.rank) ∈ dot_S64x64_S64x4096_S64x4096_1_0_0_1_n_n.rhsNonContracting by decide)]
  rfl

/-- A 64 × 64 matrix times a 64 × 4096 matrix: entry (c, n) is the sum over k of l[c, k] · r[k, n]. -/
theorem matmul_mix_apply {φ₁ φ₂ : FTy} (l : FVec Ideal S64x64 φ₁) (r : FVec Ideal S64x4096 φ₂) (c : Fin 64) (n : Fin 4096) :
    matmul (F := Ideal) dot_S64x64_S64x4096_S64x4096_1_0_0_1_n_n none l r (constant (F := Ideal) S64x4096 .f32 0x00000000#32) (ix2 c n)
      = ∑ k : Fin 64, l (ix2 c k) * r (ix2 k n) := by
  show FloatOps.matmul dot_S64x64_S64x4096_S64x4096_1_0_0_1_n_n none l r (constant (F := Ideal) S64x4096 .f32 0x00000000#32) (ix2 c n) = _
  rw [Ideal.matmul_constant_zero_apply, ← Equiv.sum_comp (contrEquiv1 dot_S64x64_S64x4096_S64x4096_1_0_0_1_n_n 64 rfl rfl).symm]
  refine Finset.sum_congr rfl fun k _ => ?_
  have hk := contrEquiv1_symm_val dot_S64x64_S64x4096_S64x4096_1_0_0_1_n_n 64 rfl rfl k
  have el : dot_S64x64_S64x4096_S64x4096_1_0_0_1_n_n.lhsIdx (ix2 c n) ((contrEquiv1 dot_S64x64_S64x4096_S64x4096_1_0_0_1_n_n 64 rfl rfl).symm k) = ix2 c k := funext fun a => Fin.ext (by
    match a with
    | ⟨0, _⟩ => exact matmul_mix_apply_lhs _ _
    | ⟨1, _⟩ => exact (dot_S64x64_S64x4096_S64x4096_1_0_0_1_n_n.lhsIdx_val_of_single rfl _ _).trans hk)
  have er : dot_S64x64_S64x4096_S64x4096_1_0_0_1_n_n.rhsIdx (ix2 c n) ((contrEquiv1 dot_S64x64_S64x4096_S64x4096_1_0_0_1_n_n 64 rfl rfl).symm k) = ix2 k n := funext fun a => Fin.ext (by
    match a with
    | ⟨0, _⟩ => exact (dot_S64x64_S64x4096_S64x4096_1_0_0_1_n_n.rhsIdx_val_of_single rfl _ _).trans hk
    | ⟨1, _⟩ => exact matmul_mix_apply_rhs _ _)
  rw [el, er]

/-- The left operand's free coordinate is the result's row. -/
theorem matmul_out_apply_lhs (i : S512x1024.Idx) (q : dot_S512x512_S1024x512_S512x1024_1_1_0_0_n_n.contr.Idx) :
    (dot_S512x512_S1024x512_S512x1024_1_1_0_0_n_n.lhsIdx i q 0).val = (i 0).val := by
  unfold DotDims.lhsIdx
  rw [dif_neg (show ¬(0 : Fin S512x512.rank) ∈ dot_S512x512_S1024x512_S512x1024_1_1_0_0_n_n.lhsBatch by decide),
    dif_pos (show (0 : Fin S512x512.rank) ∈ dot_S512x512_S1024x512_S512x1024_1_1_0_0_n_n.lhsNonContracting by decide)]
  rfl

/-- The right operand's free coordinate is the result's column. -/
theorem matmul_out_apply_rhs (i : S512x1024.Idx) (q : dot_S512x512_S1024x512_S512x1024_1_1_0_0_n_n.contr.Idx) :
    (dot_S512x512_S1024x512_S512x1024_1_1_0_0_n_n.rhsIdx i q 0).val = (i 1).val := by
  unfold DotDims.rhsIdx
  rw [dif_neg (show ¬(0 : Fin S1024x512.rank) ∈ dot_S512x512_S1024x512_S512x1024_1_1_0_0_n_n.rhsBatch by decide),
    dif_pos (show (0 : Fin S1024x512.rank) ∈ dot_S512x512_S1024x512_S512x1024_1_1_0_0_n_n.rhsNonContracting by decide)]
  rfl

/-- A 512 × 512 matrix and a 1024 × 512 matrix contracted along their last axes: entry (c, n) is the inner product of row c of the first and row n of the second. -/
theorem matmul_out_apply {φ₁ φ₂ : FTy} (l : FVec Ideal S512x512 φ₁) (r : FVec Ideal S1024x512 φ₂) (c : Fin 512) (n : Fin 1024) :
    matmul (F := Ideal) dot_S512x512_S1024x512_S512x1024_1_1_0_0_n_n none l r (constant (F := Ideal) S512x1024 .f32 0x00000000#32) (ix2 c n)
      = ∑ k : Fin 512, l (ix2 c k) * r (ix2 n k) := by
  show FloatOps.matmul dot_S512x512_S1024x512_S512x1024_1_1_0_0_n_n none l r (constant (F := Ideal) S512x1024 .f32 0x00000000#32) (ix2 c n) = _
  rw [Ideal.matmul_constant_zero_apply, ← Equiv.sum_comp (contrEquiv1 dot_S512x512_S1024x512_S512x1024_1_1_0_0_n_n 512 rfl rfl).symm]
  refine Finset.sum_congr rfl fun k _ => ?_
  have hk := contrEquiv1_symm_val dot_S512x512_S1024x512_S512x1024_1_1_0_0_n_n 512 rfl rfl k
  have el : dot_S512x512_S1024x512_S512x1024_1_1_0_0_n_n.lhsIdx (ix2 c n) ((contrEquiv1 dot_S512x512_S1024x512_S512x1024_1_1_0_0_n_n 512 rfl rfl).symm k) = ix2 c k := funext fun a => Fin.ext (by
    match a with
    | ⟨0, _⟩ => exact matmul_out_apply_lhs _ _
    | ⟨1, _⟩ => exact (dot_S512x512_S1024x512_S512x1024_1_1_0_0_n_n.lhsIdx_val_of_single rfl _ _).trans hk)
  have er : dot_S512x512_S1024x512_S512x1024_1_1_0_0_n_n.rhsIdx (ix2 c n) ((contrEquiv1 dot_S512x512_S1024x512_S512x1024_1_1_0_0_n_n 512 rfl rfl).symm k) = ix2 n k := funext fun a => Fin.ext (by
    match a with
    | ⟨0, _⟩ => exact matmul_out_apply_rhs _ _
    | ⟨1, _⟩ => exact (dot_S512x512_S1024x512_S512x1024_1_1_0_0_n_n.rhsIdx_val_of_single rfl _ _).trans hk)
  rw [el, er]

end Cert.KernelIdeal.Pay

end
-- ==== Proof.PayRow.lean ====
/-
  Row operations on a matrix, read at an index given by coordinates.

  For an a × b matrix v: the sum along a row, and the maximum along a row, are a vector of length a whose entry c is the
  sum (the fold of max from the start value) of the entries v[c, n] over the b columns; that vector re-read as an a × 1
  column has the same entry at (c, 0); and the a × 1 column spread over b columns has, at (c, n), the column's entry
  (c, 0).  Together they read a "reduce along the row, keep the axis, spread again" chain at one entry.
-/
import Idealize.ShloMosaic.Lib.ValueIdx
import Idealize.ShloMosaic.Lib.Pipeline.Value
import Idealize.ShloMosaic.PureOps.Ideal.Laws

noncomputable section

namespace Cert.KernelIdeal.Pay

open Idealize.ShloMosaic Idealize.ShloMosaic.ValueIdx

variable {α : Type}

/-- A length-a vector cast to an a × 1 column reads, at (i, u), the vector at i, whatever the unit coordinate u. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An a × 1 column spread over b columns reads, at (p, c), the column's entry (p, 0). -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- In a reduction along the rows of an a × b matrix, the source index over result entry c with column k inserted is
    (c, k). -/
theorem lift_row {a b : ℕ} (h : (⟨2, ![a, b]⟩ : Shape).Reduces [1] ⟨1, ![a]⟩) (c : Fin a) (k : Fin b) :
    h.lift (ix1 c) k = ix2 c k :=
  funext fun x => Fin.ext (by
    match x with
    | ⟨0, _⟩ => rfl
    | ⟨1, _⟩ => rfl)

/-- The sum along the rows of an a × b matrix, read at entry c: the sum of v[c, n] over the b columns. -/
theorem rowSum_apply {a b : ℕ} (v : FVec Ideal ⟨2, ![a, b]⟩ .f32) (acc : BitVec 32)
    (h : (⟨2, ![a, b]⟩ : Shape).Reduces [1] ⟨1, ![a]⟩) (hφ : FKind.Formats .f32)
    (hacc : acc = FKind.add.neutral .f32 hφ) (c : Fin a) :
    multiReduction (F := Ideal) .add [1] ⟨1, ![a]⟩ v acc h hφ hacc (ix1 c) = ∑ n : Fin b, v (ix2 c n) := by
  refine (Ideal.multiReduction_add_single v acc h hφ hacc (ix1 c)).trans ?_
  exact Finset.sum_congr rfl fun k _ => congrArg v (lift_row h c k)

/-- The maximum along the rows of an a × b matrix, read at entry c: the fold of max, from the start value, of v[c, d]
    over the b columns. -/
theorem rowMax_apply {a b : ℕ} (v : FVec Ideal ⟨2, ![a, b]⟩ .f32) (acc : BitVec 32)
    (h : (⟨2, ![a, b]⟩ : Shape).Reduces [1] ⟨1, ![a]⟩) (hφ : FKind.Formats .f32)
    (hacc : acc = FKind.maximumf.neutral .f32 hφ) (c : Fin a) :
    multiReduction (F := Ideal) .maximumf [1] ⟨1, ![a]⟩ v acc h hφ hacc (ix1 c)
      = (Finset.univ : Finset (Fin b)).fold max (Ideal.ofBits .f32 acc) (fun d => v (ix2 c d)) := by
  refine (Ideal.multiReduction_maximumf_single v acc h hφ hacc (ix1 c)).trans ?_
  have e : (v ∘ h.lift (ix1 c)) = fun d : Fin b => v (ix2 c d) := funext fun d => congrArg v (lift_row h c d)
  exact congrArg (fun f : Fin b → EReal => (Finset.univ : Finset (Fin b)).fold max (Ideal.ofBits .f32 acc) f) e

end Cert.KernelIdeal.Pay

end
-- ==== Proof.PayNorm.lean ====
/-
  The row normalisation, read at an entry.

  The kernel divides each row of a 64 × 4096 matrix t by the larger of the square root of the row's sum of squares and
  a small constant: it squares t entry by entry, sums along the rows, re-reads the 64 sums as a column, takes the square
  root and the maximum with the constant column, spreads the column over the 4096 columns and divides.  At entry (c, n)
  that is t[c, n] divided by the divisor of row c.
-/
import proofs.«102795_j66219805769965_2_alg».proof.Proof.Gen.KernelIdeal.Skeleton
import proofs.«102795_j66219805769965_2_alg».proof.Proof.PayRow
import proofs.«102795_j66219805769965_2_alg».proof.Proof.Spec

noncomputable section

namespace Cert.KernelIdeal.Pay

open Cert.KernelIdeal Cert.KernelIdeal.Gen Idealize.ShloMosaic Idealize.ShloMosaic.ValueIdx

/-- The row-normalised matrix as the kernel computes it from t (the last step, a change of format, does not change an
    extended real). -/
def normVec (t : FVec Ideal S64x4096 .f32) : FVec Ideal S64x4096 .bf16 :=
  truncf .bf16
    (divf t
      (broadcastTo S64x4096
        (maximumf
          (sqrt (shapeCast S64x1
            (multiReduction (F := Ideal) .add [1] S64 (mulf t t) 0x00000000#32 reduces_S64x4096_S64 (.inl rfl) rfl)
            shapeCasts_S64_S64x1))
          (broadcast S64x1 (Scalar.ofBits (F := Ideal) .f32 0x2B8CBCCC#32)))
        broadcasts_S64x1_S64x4096))
    bitsLt_bf16_f32

/-- Entry (c, n) of it is t[c, n] over the divisor of row c. -/
theorem normVec_apply (t : FVec Ideal S64x4096 .f32) (c : Fin 64) (n : Fin 4096) :
    normVec t (ix2 c n) = Cert.Attn.normalized (fun c n => t (ix2 c n)) c n := by
  show Ideal.div (t (ix2 c n)) (broadcastTo S64x4096 _ broadcasts_S64x1_S64x4096 (ix2 c n))
    = Ideal.div (t (ix2 c n))
        (max (Ideal.sqrt (∑ m : Fin 4096, t (ix2 c m) * t (ix2 c m))) Cert.Attn.epsLit)
  refine congrArg (Ideal.div (t (ix2 c n))) ?_
  refine (broadcastTo_a1_ab_apply _ broadcasts_S64x1_S64x4096 c n).trans ?_
  show max (Ideal.sqrt (shapeCast S64x1 _ shapeCasts_S64_S64x1 (ix2 c (0 : Fin 1)))) Cert.Attn.epsLit = _
  refine congrArg (fun z => max (Ideal.sqrt z) Cert.Attn.epsLit) ?_
  refine (shapeCast_a_a1_apply _ shapeCasts_S64_S64x1 c 0).trans ?_
  exact rowSum_apply (mulf t t) _ reduces_S64x4096_S64 _ _ c

end Cert.KernelIdeal.Pay

end
-- ==== Proof.PaySoftmax.lean ====
/-
  The softmax along rows, read at an entry.

  From a 64 × 64 matrix s the kernel takes each row's maximum (a fold of max from the start value), re-reads the 64
  maxima as a column, spreads it over the 64 columns, subtracts and exponentiates; then sums the exponentials along the
  rows, re-reads, spreads and divides.  At entry (c, d) that is the exponential of s[c, d] minus the maximum of row c,
  over the sum of row c's exponentials.
-/
import proofs.«102795_j66219805769965_2_alg».proof.Proof.Gen.KernelIdeal.Skeleton
import proofs.«102795_j66219805769965_2_alg».proof.Proof.PayRow
import proofs.«102795_j66219805769965_2_alg».proof.Proof.Spec

noncomputable section

namespace Cert.KernelIdeal.Pay

open Cert.KernelIdeal Cert.KernelIdeal.Gen Idealize.ShloMosaic Idealize.ShloMosaic.ValueIdx

/-- The exponentials of the entries minus their row's maximum, as the kernel computes them. -/
def expVec (s : FVec Ideal S64x64 .f32) : FVec Ideal S64x64 .f32 :=
  exp (subf s
    (broadcastTo S64x64
      (shapeCast S64x1
        (multiReduction (F := Ideal) .maximumf [1] S64 s 0xFF800000#32 reduces_S64x64_S64 (.inl rfl) rfl)
        shapeCasts_S64_S64x1)
      broadcasts_S64x1_S64x64))

/-- Entry (c, d) of it. -/
theorem expVec_apply (s : FVec Ideal S64x64 .f32) (c d : Fin 64) :
    expVec s (ix2 c d) = Cert.Attn.expo (fun c d => s (ix2 c d)) c d := by
  show Ideal.exp (s (ix2 c d) - broadcastTo S64x64 _ broadcasts_S64x1_S64x64 (ix2 c d))
    = Ideal.exp (s (ix2 c d) - Cert.Attn.rowMax (fun c d => s (ix2 c d)) c)
  refine congrArg (fun z => Ideal.exp (s (ix2 c d) - z)) ?_
  refine (broadcastTo_a1_ab_apply _ broadcasts_S64x1_S64x64 c d).trans ?_
  refine (shapeCast_a_a1_apply _ shapeCasts_S64_S64x1 c 0).trans ?_
  exact rowMax_apply s _ reduces_S64x64_S64 _ _ c

/-- The exponentials over their row sums, as the kernel computes them. -/
def softVec (s : FVec Ideal S64x64 .f32) : FVec Ideal S64x64 .f32 :=
  divf (expVec s)
    (broadcastTo S64x64
      (shapeCast S64x1
        (multiReduction (F := Ideal) .add [1] S64 (expVec s) 0x00000000#32 reduces_S64x64_S64 (.inl rfl) rfl)
        shapeCasts_S64_S64x1)
      broadcasts_S64x1_S64x64)

/-- Entry (c, d) of it is the softmax of row c at d. -/
theorem softVec_apply (s : FVec Ideal S64x64 .f32) (c d : Fin 64) :
    softVec s (ix2 c d) = Cert.Attn.softmax (fun c d => s (ix2 c d)) c d := by
  show Ideal.div (expVec s (ix2 c d)) (broadcastTo S64x64 _ broadcasts_S64x1_S64x64 (ix2 c d))
    = Ideal.div (Cert.Attn.expo (fun c d => s (ix2 c d)) c d)
        (∑ e : Fin 64, Cert.Attn.expo (fun c d => s (ix2 c d)) c e)
  refine congrArg₂ Ideal.div (expVec_apply s c d) ?_
  refine (broadcastTo_a1_ab_apply _ broadcasts_S64x1_S64x64 c d).trans ?_
  refine (shapeCast_a_a1_apply _ shapeCasts_S64_S64x1 c 0).trans ?_
  refine (rowSum_apply (expVec s) _ reduces_S64x64_S64 _ _ c).trans ?_
  exact Finset.sum_congr rfl fun e _ => expVec_apply s c e

end Cert.KernelIdeal.Pay

end
-- ==== Proof.PayHead.lean ====
/-
  One head of the first kernel function, read at an entry.

  From the token matrix x (512 × 4096) and three 64 × 512 weight slices the kernel forms three products w · x; the
  first two are row-normalised and contracted along the long axis into a 64 × 64 matrix, which is scaled by 1/8 and put
  through the softmax along rows; the result times the third product is the head's 64 × 4096 matrix, re-read as
  1 × 64 × 4096.  Each stage, read at an entry, is the corresponding function of the specification applied to the
  previous stage, so entry (0, c, n) of what is stored is the specification's head at (c, n).
-/
import proofs.«102795_j66219805769965_2_alg».proof.Proof.Gen.KernelIdeal.Skeleton
import proofs.«102795_j66219805769965_2_alg».proof.Proof.PayProj
import proofs.«102795_j66219805769965_2_alg».proof.Proof.PayNorm
import proofs.«102795_j66219805769965_2_alg».proof.Proof.PaySoftmax
import proofs.«102795_j66219805769965_2_alg».proof.Proof.Spec
import Idealize.ShloMosaic.Lib.ValueLayout

noncomputable section

namespace Cert.KernelIdeal.Pay

open Cert.KernelIdeal Cert.KernelIdeal.Gen Idealize.ShloMosaic Idealize.ShloMosaic.ValueIdx

/-- A weight slice times the tokens, as the kernel computes it. -/
def projVec (v1 : FVec Ideal S512x4096 .bf16) (w : Vec Ideal S64x512 .bf16) : FVec Ideal S64x4096 .f32 :=
  matmul (F := Ideal) dot_S64x512_S512x4096_S64x4096_1_0_0_1_n_n none
    (shapeCast S64x512 w shapeCasts_S64x512_S64x512 : FVec Ideal S64x512 .bf16) v1
    (constant (F := Ideal) S64x4096 .f32 0x00000000#32)

/-- Entry (c, n) of it is the sum over k of w[c, k] · x[k, n]. -/
theorem projVec_apply (v1 : FVec Ideal S512x4096 .bf16) (w : Vec Ideal S64x512 .bf16) (c : Fin 64) (n : Fin 4096) :
    projVec v1 w (ix2 c n) = Cert.Attn.proj (fun c k => w (ix2 c k)) (fun k n => v1 (ix2 k n)) c n := by
  refine (matmul_proj_apply (φ₁ := .bf16) (φ₂ := .bf16) _ v1 c n).trans ?_
  exact Finset.sum_congr rfl fun k _ =>
    congrArg (· * v1 (ix2 k n)) (congrFun (shapeCast_self w shapeCasts_S64x512_S64x512) (ix2 c k))

/-- The same as an equation of functions of the two coordinates. -/
theorem projVec_fun (v1 : FVec Ideal S512x4096 .bf16) (w : Vec Ideal S64x512 .bf16) :
    (fun (c : Fin 64) (n : Fin 4096) => projVec v1 w (ix2 c n))
      = Cert.Attn.proj (fun c k => w (ix2 c k)) (fun k n => v1 (ix2 k n)) :=
  funext fun c => funext fun n => projVec_apply v1 w c n

/-- The scaled inner products of the normalised rows of q and k, as the kernel computes them. -/
def logitVec (q k : FVec Ideal S64x4096 .f32) : FVec Ideal S64x64 .f32 :=
  mulf
    (matmul (F := Ideal) dot_S64x4096_S64x4096_S64x64_1_1_0_0_n_n none (normVec q) (normVec k)
      (constant (F := Ideal) S64x64 .f32 0x00000000#32))
    (broadcast S64x64 (Scalar.ofBits (F := Ideal) .f32 0x3E000000#32))

/-- Entry (c, d) of it. -/
theorem logitVec_apply (q k : FVec Ideal S64x4096 .f32) (c d : Fin 64) :
    logitVec q k (ix2 c d) = Cert.Attn.logits (fun c n => q (ix2 c n)) (fun c n => k (ix2 c n)) c d := by
  show matmul (F := Ideal) dot_S64x4096_S64x4096_S64x64_1_1_0_0_n_n none (normVec q) (normVec k)
        (constant (F := Ideal) S64x64 .f32 0x00000000#32) (ix2 c d) * Cert.Attn.scaleLit
      = (∑ n : Fin 4096, Cert.Attn.normalized (fun c n => q (ix2 c n)) c n
          * Cert.Attn.normalized (fun c n => k (ix2 c n)) d n) * Cert.Attn.scaleLit
  refine congrArg (· * Cert.Attn.scaleLit) ?_
  refine (matmul_gram_apply (normVec q) (normVec k) c d).trans ?_
  exact Finset.sum_congr rfl fun n _ => congrArg₂ (· * ·) (normVec_apply q c n) (normVec_apply k d n)

/-- The payload of the first two products is the inner products before scaling; the payload stored is the softmax of
    their scaled form times the third product, re-read with a leading unit axis. -/
theorem pay_eq (v1 : FVec Ideal S512x4096 .bf16) (v14 v17 v20 : Vec Ideal S64x512 .bf16) :
    k0_pay2 (F := Ideal) (k0_pay3 (F := Ideal) v1 v20) (k0_pay4 (F := Ideal) v1 v14 v17)
      = shapeCast S1x64x4096
          (truncf .bf16
            (matmul (F := Ideal) dot_S64x64_S64x4096_S64x4096_1_0_0_1_n_n none
              (truncf .bf16 (softVec (logitVec (projVec v1 v14) (projVec v1 v17))) bitsLt_bf16_f32)
              (truncf .bf16 (projVec v1 v20) bitsLt_bf16_f32)
              (constant (F := Ideal) S64x4096 .f32 0x00000000#32))
            bitsLt_bf16_f32)
          shapeCasts_S64x4096_S1x64x4096 := rfl

/-- Entry (0, c, n) of what the first kernel function stores for a head is the specification's head at (c, n), of the
    three weight slices and the token matrix read through their coordinates. -/
theorem head_payload (v1 : FVec Ideal S512x4096 .bf16) (v14 v17 v20 : Vec Ideal S64x512 .bf16) (c : Fin 64) (n : Fin 4096) :
    k0_pay2 (F := Ideal) (k0_pay3 (F := Ideal) v1 v20) (k0_pay4 (F := Ideal) v1 v14 v17) (ix3 (0 : Fin 1) c n)
      = Cert.Attn.head (fun c k => v14 (ix2 c k)) (fun c k => v17 (ix2 c k)) (fun c k => v20 (ix2 c k))
          (fun k n => v1 (ix2 k n)) c n := by
  refine (congrFun (pay_eq v1 v14 v17 v20) (ix3 (0 : Fin 1) c n)).trans ?_
  refine (shapeCast_ab_1ab_apply _ shapeCasts_S64x4096_S1x64x4096 0 c n).trans ?_
  show matmul (F := Ideal) dot_S64x64_S64x4096_S64x4096_1_0_0_1_n_n none
      (truncf .bf16 (softVec (logitVec (projVec v1 v14) (projVec v1 v17))) bitsLt_bf16_f32)
      (truncf .bf16 (projVec v1 v20) bitsLt_bf16_f32)
      (constant (F := Ideal) S64x4096 .f32 0x00000000#32) (ix2 c n) = _
  refine (matmul_mix_apply _ _ c n).trans ?_
  unfold Cert.Attn.head
  refine Finset.sum_congr rfl fun d _ => ?_
  refine congrArg₂ (· * ·) ?_ (projVec_apply v1 v20 d n)
  refine (softVec_apply (logitVec (projVec v1 v14) (projVec v1 v17)) c d).trans ?_
  refine congrFun (congrFun (congrArg Cert.Attn.softmax ?_) c) d
  funext c' d'
  refine (logitVec_apply (projVec v1 v14) (projVec v1 v17) c' d').trans ?_
  exact congrArg₂ (fun q k => Cert.Attn.logits q k c' d') (projVec_fun v1 v14) (projVec_fun v1 v17)

end Cert.KernelIdeal.Pay

end
-- ==== Proof.PayOut.lean ====
/-
  The two simple payloads: the tokens as a matrix, and the output projection with its bias.

  The first kernel function re-reads its 1 × 512 × 4096 block as a 512 × 4096 matrix: entry (k, n) is the block's entry
  (0, k, n).  The second one re-reads its 1 × 1024 × 512 block as a 1024 × 512 matrix, multiplies the 512 × 512 weight
  by it contracting the last axes, adds the bias column spread over the 1024 columns, and re-reads the 512 × 1024 result
  as 1 × 512 × 1024: entry (0, d, j) is the inner product of weight row d with block row j, plus the bias of d.
-/
import proofs.«102795_j66219805769965_2_alg».proof.Proof.Gen.KernelIdeal.Skeleton
import proofs.«102795_j66219805769965_2_alg».proof.Proof.PayRow
import proofs.«102795_j66219805769965_2_alg».proof.Proof.PayProj
import Idealize.ShloMosaic.Lib.ValueLayout

noncomputable section

namespace Cert.KernelIdeal.Pay

open Cert.KernelIdeal Cert.KernelIdeal.Gen Idealize.ShloMosaic Idealize.ShloMosaic.ValueIdx

/-- The tokens as a matrix: entry (k, n) is the block's entry (0, k, n). -/
theorem tokens_payload (v0 : Vec Ideal S1x512x4096 .bf16) (k : Fin 512) (n : Fin 4096) :
    k0_pay1 (F := Ideal) v0 (ix2 k n) = v0 (ix3 (0 : Fin 1) k n) :=
  shapeCast_1ab_ab_apply v0 shapeCasts_S1x512x4096_S512x4096 k n

/-- The second kernel function's stored value, with its intermediate names substituted. -/
theorem out_eq (v0 : Vec Ideal S1x1024x512 .bf16) (v2 : Vec Ideal S512x512 .bf16) (v5 : Vec Ideal S512x1 .f32) :
    k1_pay1 (F := Ideal) v0 v2 v5
      = shapeCast S1x512x1024
          (addf
            (matmul (F := Ideal) dot_S512x512_S1024x512_S512x1024_1_1_0_0_n_n none
              (shapeCast S512x512 v2 shapeCasts_S512x512_S512x512 : FVec Ideal S512x512 .bf16)
              (shapeCast S1024x512 v0 shapeCasts_S1x1024x512_S1024x512 : FVec Ideal S1024x512 .bf16)
              (constant (F := Ideal) S512x1024 .f32 0x00000000#32))
            (broadcastTo S512x1024 (shapeCast S512x1 v5 shapeCasts_S512x1_S512x1 : FVec Ideal S512x1 .f32)
              broadcasts_S512x1_S512x1024))
          shapeCasts_S512x1024_S1x512x1024 := rfl

/-- The output projection: entry (0, d, j) is the sum over c' of weight[d, c'] · block[0, j, c'], plus bias[d, 0]. -/
theorem proj_payload (v0 : Vec Ideal S1x1024x512 .bf16) (v2 : Vec Ideal S512x512 .bf16) (v5 : Vec Ideal S512x1 .f32)
    (d : Fin 512) (j : Fin 1024) :
    k1_pay1 (F := Ideal) v0 v2 v5 (ix3 (0 : Fin 1) d j)
      = (∑ c' : Fin 512, v2 (ix2 d c') * v0 (ix3 (0 : Fin 1) j c')) + v5 (ix2 d (0 : Fin 1)) := by
  refine (congrFun (out_eq v0 v2 v5) (ix3 (0 : Fin 1) d j)).trans ?_
  refine (shapeCast_ab_1ab_apply _ shapeCasts_S512x1024_S1x512x1024 0 d j).trans ?_
  show matmul (F := Ideal) dot_S512x512_S1024x512_S512x1024_1_1_0_0_n_n none
        (shapeCast S512x512 v2 shapeCasts_S512x512_S512x512 : FVec Ideal S512x512 .bf16)
        (shapeCast S1024x512 v0 shapeCasts_S1x1024x512_S1024x512 : FVec Ideal S1024x512 .bf16)
        (constant (F := Ideal) S512x1024 .f32 0x00000000#32) (ix2 d j)
      + broadcastTo S512x1024 (shapeCast S512x1 v5 shapeCasts_S512x1_S512x1 : FVec Ideal S512x1 .f32)
          broadcasts_S512x1_S512x1024 (ix2 d j) = _
  refine congrArg₂ (· + ·) ?_ ?_
  · refine (matmul_out_apply (φ₁ := .bf16) (φ₂ := .bf16) _ _ d j).trans ?_
    refine Finset.sum_congr rfl fun c' _ => ?_
    exact congrArg₂ (· * ·) (congrFun (shapeCast_self v2 shapeCasts_S512x512_S512x512) (ix2 d c'))
      (shapeCast_1ab_ab_apply v0 shapeCasts_S1x1024x512_S1024x512 j c')
  · refine (broadcastTo_a1_ab_apply _ broadcasts_S512x1_S512x1024 d j).trans ?_
    exact congrFun (shapeCast_self v5 shapeCasts_S512x1_S512x1) (ix2 d (0 : Fin 1))

end Cert.KernelIdeal.Pay

end
-- ==== Proof.Pay.lean ====
/-
  The kernel functions' stored values read at an entry: the three statements, gathered.
-/
import proofs.«102795_j66219805769965_2_alg».proof.Proof.PayHead
import proofs.«102795_j66219805769965_2_alg».proof.Proof.PayOut
-- ==== Proof.AttnPieces.lean ====
/-
  What the attention region's body leaves in its output block.  The body loads the whole 512 × 4096 token block
  once and then, for each of the 8 heads in turn, loads rows 64·h … 64·h + 63 of the three 512-row parts of the
  weight block, computes the head's 64 × 4096 result and stores it at columns 4096·h … 4096·h + 4095 of the
  64 × 32768 output block.  The eight stores tile the block, and each store's value is, entry by entry, the one
  function `headsBlock` of the block's index: row c, column 4096·h + n holds head h's entry (c, n).
-/
import proofs.«102795_j66219805769965_2_alg».proof.Proof.Gen.KernelIdeal.Frame
import proofs.«102795_j66219805769965_2_alg».proof.Proof.Spec
import proofs.«102795_j66219805769965_2_alg».proof.Proof.Pay
import Idealize.ShloMosaic.Lib.Pipeline.Value
import Idealize.ShloMosaic.Lib.ValueIdx

set_option maxRecDepth 16384

noncomputable section

namespace Cert.KernelIdeal.AttnRegion

open Cert.KernelIdeal Cert.KernelIdeal.Gen
open Idealize.ShloMosaic Idealize.ShloMosaic.TcCoe Idealize.ShloMosaic.Tactic Idealize.ShloMosaic.ValueIdx
open Idealize.SL Idealize.SL.Sem

/-- The output block as one function of the token block and the weight block: row c, column 4096·h + n is entry
    (c, n) of head h, whose three weight slices are rows 64·h … of the three parts of the weight block. -/
def headAt (x0 : Vec Ideal S1x512x4096 .bf16) (x1 : Vec Ideal S1536x512 .bf16) (h : Fin 8) (c : Fin 64) (n : Fin 4096) : EReal :=
  Cert.Attn.head (Cert.Attn.wslice (Cert.Attn.cur2w x1) 0 h) (Cert.Attn.wslice (Cert.Attn.cur2w x1) 1 h)
    (Cert.Attn.wslice (Cert.Attn.cur2w x1) 2 h) (fun k n => x0 (ix3 (0 : Fin 1) k n)) c n

def headsBlock (x0 : Vec Ideal S1x512x4096 .bf16) (x1 : Vec Ideal S1536x512 .bf16) : Vec Ideal S1x64x32768 .bf16 :=
  fun y => headAt x0 x1 ⟨(y 2).val / 4096, by have h2 : (y 2).val < 32768 := (y 2).isLt; omega⟩
    ⟨(y 1).val, (y 1).isLt⟩ ⟨(y 2).val % 4096, Nat.mod_lt _ (by decide)⟩

/-- The block's entry at row c, column 4096·h + n. -/
theorem headsBlock_at (x0 : Vec Ideal S1x512x4096 .bf16) (x1 : Vec Ideal S1536x512 .bf16) (y : S1x64x32768.Idx)
    (h : Fin 8) (c : Fin 64) (n : Fin 4096) (h1 : (y 1).val = c.val) (h2 : (y 2).val = 4096 * h.val + n.val) :
    headsBlock x0 x1 y = headAt x0 x1 h c n := by
  unfold headsBlock
  have eh : (⟨(y 2).val / 4096, by have h2 : (y 2).val < 32768 := (y 2).isLt; omega⟩ : Fin 8) = h :=
    Fin.ext (by show (y 2).val / 4096 = h.val; have := n.isLt; omega)
  have ec : (⟨(y 1).val, (y 1).isLt⟩ : Fin 64) = c := Fin.ext h1
  have en : (⟨(y 2).val % 4096, Nat.mod_lt _ (by decide)⟩ : Fin 4096) = n :=
    Fin.ext (by show (y 2).val % 4096 = n.val; have := n.isLt; omega)
  exact congr (congr (congrArg (headAt x0 x1) eh) ec) en

theorem hz3 : (![0, 0, 0] : Fin 3 → Nat) = fun _ => 0 := funext fun a => by fin_cases a <;> rfl

/-- The body's one load of the token block reads the block. -/
theorem loaded_tokens (arg1 : Memref sig .tc .vmem S1x512x4096 .bf16) (harg1 : arg1.IsWhole) (x0 : Vec Ideal S1x512x4096 .bf16) :
    View.readAt (Elt Ideal) arg1.view (Rect.unit (s := S1x512x4096) ![0, 0, 0] S1x512x4096.size inb_S1x512x4096_S1x512x4096_0_0_0).toLoadRect (harg1.unread x0) = x0 := by
  rw [View.readAt_eq_ld, harg1.read_unread]
  exact View.ld_unit_zero hz3 _ x0

/-- A load of 64 rows of the weight block from row `r` on reads the block at those rows. -/
theorem loaded_rows (arg2 : Memref sig .tc .vmem S1536x512 .bf16) (harg2 : arg2.IsWhole) (x1 : Vec Ideal S1536x512 .bf16)
    (off : Fin 2 → Nat) (inb : ∀ a, off a + S64x512.size a ≤ S1536x512.size a) (r : Nat) (hoff : off = ![r, 0]) (c : Fin 64) (k : Fin 512)
    (hr : r + c.val < 1536) :
    View.readAt (Elt Ideal) arg2.view (Rect.unit (s := S1536x512) off S64x512.size inb).toLoadRect (harg2.unread x1) (ix2 c k)
      = x1 (ix2 ⟨r + c.val, hr⟩ k) := by
  rw [View.readAt_eq_ld, harg2.read_unread]
  show x1 ((Rect.unit (s := S1536x512) off S64x512.size inb).emb (ix2 c k)) = _
  refine congrArg x1 (funext fun a => Fin.ext ?_)
  rw [Rect.emb_apply]
  subst hoff
  match a with
  | ⟨0, _⟩ => show r + 1 * c.val = r + c.val; omega
  | ⟨1, _⟩ => show 0 + 1 * k.val = k.val; omega

/-- One trip of the loop over heads stores, at its columns, the entries of `headsBlock`. -/
theorem trip_ok (𝒱 : Variants) (c : Dev nD) (bd : Option 𝒱.V) (i : grid0.Coords) (arg1 : Memref sig .tc .vmem S1x512x4096 .bf16) (harg1 : arg1.IsWhole) (arg2 : Memref sig .tc .vmem S1536x512 .bf16) (harg2 : arg2.IsWhole) (arg3 : Memref sig .tc .vmem S1x64x32768 .bf16) (harg3 : arg3.IsWhole)
    (x0 : Vec Ideal S1x512x4096 .bf16) (x1 : Vec Ideal S1536x512 .bf16) (k : Fin k0_t1_loop.trips) :
    ∀ p ∈ tripL_k0_t1 (F := Ideal) 𝒱 c bd i arg1 harg1 arg2 harg2 arg3 harg3 x0 (harg2.unread x1) k,
      ∀ x : p.1.shape.Idx, p.2 x = headsBlock x0 x1 (p.1.emb x) := by
  have hk : k.val < 8 := Nat.lt_of_lt_of_le k.isLt k0_t1_abs.2.1
  unfold tripL_k0_t1 trip_k0_t1
  dsimp only
  sl_unfold_run_names
  intro p hp x
  obtain rfl := List.mem_singleton.mp hp
  dsimp only at x ⊢
  obtain ⟨z, cc, n, rfl⟩ : ∃ (z : Fin 1) (cc : Fin 64) (n : Fin 4096), x = ix3 z cc n := ⟨x 0, x 1, x 2, eq_ix3 x⟩
  obtain rfl : z = 0 := Subsingleton.elim _ _
  refine Eq.trans ?_ (headsBlock_at x0 x1 _ ⟨k.val, hk⟩ cc n ?_ ?_).symm
  · refine (Pay.head_payload _ _ _ _ cc n).trans ?_
    unfold headAt
    have ht : (fun (kk : Fin 512) (nn : Fin 4096) => k0_pay1 (F := Ideal) x0 (ix2 kk nn)) = fun kk nn => x0 (ix3 (0 : Fin 1) kk nn) :=
      funext fun kk => funext fun nn => Pay.tokens_payload x0 kk nn
    have hq : (fun (c' : Fin 64) (k' : Fin 512) => View.readAt (Elt Ideal) arg2.view (Rect.unit (s := S1536x512) (k0_off1 k) S64x512.size (k0_off1_inb k)).toLoadRect (harg2.unread x1) (ix2 c' k'))
        = Cert.Attn.wslice (Cert.Attn.cur2w x1) 0 ⟨k.val, hk⟩ := funext fun c' => funext fun k' => by
      refine (loaded_rows arg2 harg2 x1 (k0_off1 k) (k0_off1_inb k) (64 * k.val) (k0_off1_eq k) c' k' (by have := c'.isLt; omega)).trans ?_
      unfold Cert.Attn.wslice Cert.Attn.cur2w
      exact congrArg x1 (congrArg (fun r => ix2 r k') (Fin.ext (by show 64 * k.val + c'.val = 0 * 512 + k.val * 64 + c'.val; omega)))
    have hkk : (fun (c' : Fin 64) (k' : Fin 512) => View.readAt (Elt Ideal) arg2.view (Rect.unit (s := S1536x512) (k0_off2 k 512#32) S64x512.size (k0_off2_inb k 0)).toLoadRect (harg2.unread x1) (ix2 c' k'))
        = Cert.Attn.wslice (Cert.Attn.cur2w x1) 1 ⟨k.val, hk⟩ := funext fun c' => funext fun k' => by
      refine (loaded_rows arg2 harg2 x1 (k0_off2 k 512#32) (k0_off2_inb k 0) (512 * 0 + 64 * k.val + 512) (k0_off2_eq k ⟨0, by decide⟩) c' k' (by have := c'.isLt; omega)).trans ?_
      unfold Cert.Attn.wslice Cert.Attn.cur2w
      exact congrArg x1 (congrArg (fun r => ix2 r k') (Fin.ext (by show 512 * 0 + 64 * k.val + 512 + c'.val = 1 * 512 + k.val * 64 + c'.val; omega)))
    have hv : (fun (c' : Fin 64) (k' : Fin 512) => View.readAt (Elt Ideal) arg2.view (Rect.unit (s := S1536x512) (k0_off2 k 1024#32) S64x512.size (k0_off2_inb k 1)).toLoadRect (harg2.unread x1) (ix2 c' k'))
        = Cert.Attn.wslice (Cert.Attn.cur2w x1) 2 ⟨k.val, hk⟩ := funext fun c' => funext fun k' => by
      refine (loaded_rows arg2 harg2 x1 (k0_off2 k 1024#32) (k0_off2_inb k 1) (512 * 1 + 64 * k.val + 512) (k0_off2_eq k ⟨1, by decide⟩) c' k' (by have := c'.isLt; omega)).trans ?_
      unfold Cert.Attn.wslice Cert.Attn.cur2w
      exact congrArg x1 (congrArg (fun r => ix2 r k') (Fin.ext (by show 512 * 1 + 64 * k.val + 512 + c'.val = 2 * 512 + k.val * 64 + c'.val; omega)))
    rw [ht, hq, hkk, hv]
  · rw [Rect.emb_apply]
    show k0_off3 k 1 + 1 * cc.val = cc.val
    rw [k0_off3_eq]; show 0 + 1 * cc.val = cc.val; omega
  · rw [Rect.emb_apply]
    show k0_off3 k 2 + 1 * n.val = 4096 * k.val + n.val
    rw [k0_off3_eq]; show 4096 * k.val + 1 * n.val = 4096 * k.val + n.val; omega

/-- Every piece stored by the trips before trip `n` is a tile of `headsBlock`: by induction on the trips. -/
theorem pieces_ok (𝒱 : Variants) (c : Dev nD) (bd : Option 𝒱.V) (i : grid0.Coords) (arg1 : Memref sig .tc .vmem S1x512x4096 .bf16) (harg1 : arg1.IsWhole) (arg2 : Memref sig .tc .vmem S1536x512 .bf16) (harg2 : arg2.IsWhole) (arg3 : Memref sig .tc .vmem S1x64x32768 .bf16) (harg3 : arg3.IsWhole)
    (x0 : Vec Ideal S1x512x4096 .bf16) (x1 : Vec Ideal S1536x512 .bf16) :
    ∀ n : Nat, n ≤ k0_t1_loop.trips →
      ∀ p ∈ pb_k0_t1 (F := Ideal) 𝒱 c bd i arg1 harg1 arg2 harg2 arg3 harg3 x0 (harg2.unread x1) n,
        ∀ x : p.1.shape.Idx, p.2 x = headsBlock x0 x1 (p.1.emb x)
  | 0, _ => by
    intro p hp
    rw [pb_k0_t1.eq_1] at hp
    exact absurd hp (List.not_mem_nil)
  | n + 1, hn => by
    intro p hp
    rw [show n + 1 = (⟨n, hn⟩ : Fin k0_t1_loop.trips).val + 1 from rfl, pb_k0_t1_succ] at hp
    rcases List.mem_append.mp hp with h | h
    · exact trip_ok 𝒱 c bd i arg1 harg1 arg2 harg2 arg3 harg3 x0 x1 ⟨n, hn⟩ p h
    · exact pieces_ok 𝒱 c bd i arg1 harg1 arg2 harg2 arg3 harg3 x0 x1 n (Nat.le_of_succ_le hn) p h

/-- The pieces the body's run stores are those of all the trips, over the loaded token block. -/
theorem run_pieces (c : Dev nD) (i : grid0.Coords) (arg1 : Memref sig .tc .vmem S1x512x4096 .bf16) (harg1 : arg1.IsWhole) (arg2 : Memref sig .tc .vmem S1536x512 .bf16) (harg2 : arg2.IsWhole) (arg3 : Memref sig .tc .vmem S1x64x32768 .bf16) (harg3 : arg3.IsWhole)
    (x0 : Vec Ideal S1x512x4096 .bf16) (x1 : Vec Ideal S1536x512 .bf16) :
    (kernelRun0_A (F := Ideal) c i arg1 harg1 arg2 harg2 arg3 harg3 x0 x1).1
      = pb_k0_t1 (F := Ideal) Variants.none c none i arg1 harg1 arg2 harg2 arg3 harg3
          (View.readAt (Elt Ideal) arg1.view (Rect.unit (s := S1x512x4096) ![0, 0, 0] S1x512x4096.size inb_S1x512x4096_S1x512x4096_0_0_0).toLoadRect (harg1.unread x0))
          (harg2.unread x1) k0_t1_loop.trips := by
  unfold kernelRun0_A
  rfl

/-- So the output block after the body is `headsBlock` of the two input blocks: the stores cover the block and
    each is a tile of that one function. -/
theorem out0_eq (c : Dev nD) (i : grid0.Coords) (arg1 : Memref sig .tc .vmem S1x512x4096 .bf16) (harg1 : arg1.IsWhole) (arg2 : Memref sig .tc .vmem S1536x512 .bf16) (harg2 : arg2.IsWhole) (arg3 : Memref sig .tc .vmem S1x64x32768 .bf16) (harg3 : arg3.IsWhole)
    (x0 : Vec Ideal S1x512x4096 .bf16) (x1 : Vec Ideal S1536x512 .bf16) :
    out0_A_2 (F := Ideal) c i arg1 harg1 arg2 harg2 arg3 harg3 x0 x1 = headsBlock x0 x1 := by
  unfold out0_A_2
  rw [View.read_writes_eq_canon _ _ _ (cover0_A_2 c i arg1 harg1 arg2 harg2 arg3 harg3 x0 x1)]
  funext y
  refine View.canon_apply_of_pieces (headsBlock x0 x1) _ ?_ y (cover0_A_2 c i arg1 harg1 arg2 harg2 arg3 harg3 x0 x1 y)
  rw [run_pieces, loaded_tokens]
  exact pieces_ok Variants.none c none i arg1 harg1 arg2 harg2 arg3 harg3 x0 x1 _ (le_refl _)

end Cert.KernelIdeal.AttnRegion

end
-- ==== Proof.AttnRegion.lean ====
/-
  What the attention region leaves in its output array.  The grid is the 16 batch entries: point b reads block b of
  the token array (512 × 4096) and the whole weight array, and writes block b of the 16 × 64 × 32768 output.  By the
  body's value (the eight heads' results side by side along the last axis) the output array ends holding one
  function of the two arrays the region finds: entry (b, c, 4096·h + n) is entry (c, n) of head h of batch entry b.
-/
import proofs.«102795_j66219805769965_2_alg».proof.Proof.AttnPieces

set_option maxRecDepth 16384

noncomputable section

namespace Cert.KernelIdeal.AttnRegion

open Cert.KernelIdeal Cert.KernelIdeal.Gen
open Idealize.ShloMosaic Idealize.ShloMosaic.TcCoe Idealize.ShloMosaic.ValueIdx Idealize.SL.Sem
open Idealize.ShloMosaic.Pipeline (Dat)

/-- Head h of batch entry b, from the token array and the weight array. -/
def headOf (a1 : S16x512x4096.Idx → EReal) (a2 : S1536x512.Idx → EReal) (b : Fin 16) (h : Fin 8) (c : Fin 64) (n : Fin 4096) : EReal :=
  Cert.Attn.head (Cert.Attn.wslice (Cert.Attn.cur2w a2) 0 h) (Cert.Attn.wslice (Cert.Attn.cur2w a2) 1 h)
    (Cert.Attn.wslice (Cert.Attn.cur2w a2) 2 h) (fun k n => a1 (ix3 b k n)) c n

/-- The region's output array: entry (b, c, 4096·h + n) is head h of batch entry b at (c, n). -/
def attnArr (a1 : S16x512x4096.Idx → EReal) (a2 : S1536x512.Idx → EReal) : S16x64x32768.Idx → EReal :=
  fun i => headOf a1 a2 ⟨(i 0).val, (i 0).isLt⟩ ⟨(i 2).val / 4096, by have h2 : (i 2).val < 32768 := (i 2).isLt; omega⟩
    ⟨(i 1).val, (i 1).isLt⟩ ⟨(i 2).val % 4096, Nat.mod_lt _ (by decide)⟩

/-- A block's head, when the token block is batch entry b of the token array. -/
theorem headAt_eq (a1 : S16x512x4096.Idx → EReal) (a2 : S1536x512.Idx → EReal) (x0 : Vec Ideal S1x512x4096 .bf16) (b : Fin 16)
    (hx0 : ∀ (k : Fin 512) (n : Fin 4096), x0 (ix3 (0 : Fin 1) k n) = a1 (ix3 b k n)) (h : Fin 8) (c : Fin 64) (n : Fin 4096) :
    headAt x0 a2 h c n = headOf a1 a2 b h c n := by
  unfold headAt headOf
  rw [show (fun (k : Fin 512) (n : Fin 4096) => x0 (ix3 (0 : Fin 1) k n)) = fun k n => a1 (ix3 b k n) from
    funext fun k => funext fun n => hx0 k n]

/-- A block's entry is the array function's entry at the index the block entry sits at. -/
theorem block_entry (a1 : S16x512x4096.Idx → EReal) (a2 : S1536x512.Idx → EReal) (x0 : Vec Ideal S1x512x4096 .bf16) (b : Fin 16)
    (hx0 : ∀ (k : Fin 512) (n : Fin 4096), x0 (ix3 (0 : Fin 1) k n) = a1 (ix3 b k n))
    (y : S1x64x32768.Idx) (i : S16x64x32768.Idx) (h0 : (i 0).val = b.val) (h1 : (i 1).val = (y 1).val) (h2 : (i 2).val = (y 2).val) :
    headsBlock x0 a2 y = attnArr a1 a2 i := by
  unfold headsBlock attnArr
  rw [headAt_eq a1 a2 x0 b hx0]
  have eb : b = (⟨(i 0).val, (i 0).isLt⟩ : Fin 16) := Fin.ext h0.symm
  have eh : (⟨(y 2).val / 4096, by have h2 : (y 2).val < 32768 := (y 2).isLt; omega⟩ : Fin 8)
      = ⟨(i 2).val / 4096, by have h2 : (i 2).val < 32768 := (i 2).isLt; omega⟩ :=
    Fin.ext (by show (y 2).val / 4096 = (i 2).val / 4096; rw [h2])
  have ec : (⟨(y 1).val, (y 1).isLt⟩ : Fin 64) = ⟨(i 1).val, (i 1).isLt⟩ := Fin.ext h1.symm
  have en : (⟨(y 2).val % 4096, Nat.mod_lt _ (by decide)⟩ : Fin 4096) = ⟨(i 2).val % 4096, Nat.mod_lt _ (by decide)⟩ :=
    Fin.ext (by show (y 2).val % 4096 = (i 2).val % 4096; rw [h2])
  exact congr (congr (congr (congrArg (headOf a1 a2) eb) eh) ec) en

variable (V : (c : Dev nD) → (b : Ref sig .tc) → Buf (Elt Ideal) ((c : Thread nD τ).loc b))

/-- The printed index maps over the grid: the token window and the output window move with the batch entry, the
    weight window stays at block 0. -/
theorem idx_facts : ∀ t : Fin cfg0.N, win0_0.index t (0 : Fin 3) = win0_2.index t (0 : Fin 3)
    ∧ win0_0.index t (1 : Fin 3) = 0 ∧ win0_0.index t (2 : Fin 3) = 0
    ∧ win0_1.index t (0 : Fin 2) = 0 ∧ win0_1.index t (1 : Fin 2) = 0
    ∧ win0_2.index t (1 : Fin 3) = 0 ∧ win0_2.index t (2 : Fin 3) = 0 ∧ win0_2.index t (0 : Fin 3) < 16 :=
  (by decide +kernel : ∀ t : Fin grid0.N, _)

theorem idx_onto : ∀ (q0 : Fin 16), ∃ t : Fin cfg0.N, win0_2.index t = ![q0.val, 0, 0] :=
  (by decide +kernel : ∀ (q0 : Fin 16), ∃ t : Fin grid0.N, win0_2.index t = ![q0.val, 0, 0])

/-- The weight window's block is the whole weight array. -/
theorem weight_block (c : Dev nD) (t : Fin cfg0.N) : iblk0 V c 1 t = V c main_v2 := by
  obtain ⟨e0, e1, e2, e3, e4, e5, e6, e7⟩ := idx_facts t
  funext z
  show V c main_v2 (((cfg0.win 1).blk t).view.emb z) = V c main_v2 z
  refine congrArg (V c main_v2) (funext fun a => Fin.ext ?_)
  match a with
  | ⟨0, _⟩ => show win0_1.index t (0 : Fin 2) * 1536 + 1 * (z 0).val = (z 0).val; omega
  | ⟨1, _⟩ => show win0_1.index t (1 : Fin 2) * 512 + 1 * (z 1).val = (z 1).val; omega

/-- What point `t` writes back is block `t` of `attnArr` of the two arrays as the region finds them. -/
theorem flushed2_eq (c : Dev nD) (t : Fin cfg0.N) :
    (dat0 V c).flushed 2 t = ((cfg0.win 2).blk t).view.read (Elt Ideal) (attnArr (V c main_v1) (V c main_v2)) := by
  show (cfg0.win 2).cut (grid0.coords t) ((dat0 V c).after 2 t) = _
  rw [after0_2]
  unfold outsAt0
  rw [out0_eq, weight_block]
  obtain ⟨e0, e1, e2, e3, e4, e5, e6, e7⟩ := idx_facts t
  funext y
  show headsBlock (iblk0 V c 0 t) (V c main_v2) y = attnArr (V c main_v1) (V c main_v2) (((cfg0.win 2).blk t).view.emb y)
  refine block_entry (V c main_v1) (V c main_v2) (iblk0 V c 0 t) ⟨win0_2.index t (0 : Fin 3), e7⟩ ?_ y _ ?_ ?_ ?_
  · intro k n
    show V c main_v1 (((cfg0.win 0).blk t).view.emb (ix3 (0 : Fin 1) k n)) = V c main_v1 _
    refine congrArg (V c main_v1) (funext fun a => Fin.ext ?_)
    match a with
    | ⟨0, _⟩ => show win0_0.index t (0 : Fin 3) * 1 + 1 * 0 = win0_2.index t (0 : Fin 3); omega
    | ⟨1, _⟩ => show win0_0.index t (1 : Fin 3) * 512 + 1 * k.val = k.val; omega
    | ⟨2, _⟩ => show win0_0.index t (2 : Fin 3) * 4096 + 1 * n.val = n.val; omega
  · show win0_2.index t (0 : Fin 3) * 1 + 1 * (y 0).val = win0_2.index t (0 : Fin 3)
    have hy : (y 0).val < 1 := (y 0).isLt; omega
  · show win0_2.index t (1 : Fin 3) * 64 + 1 * (y 1).val = (y 1).val; omega
  · show win0_2.index t (2 : Fin 3) * 32768 + 1 * (y 2).val = (y 2).val; omega

theorem mem_blk2 (t : Fin cfg0.N) (i : S16x64x32768.Idx) :
    i ∈ ((cfg0.win 2).blk t).view.set ↔ ∀ a : Fin 3, win0_2.index t a * S1x64x32768.size a ≤ (i a).val ∧ (i a).val < win0_2.index t a * S1x64x32768.size a + S1x64x32768.size a := by
  show i ∈ ((View.whole main_v3).slice (win0_2.rect t)).set ↔ _
  rw [View.set_slice_whole, Rect.mem_set_unit]
  exact Iff.rfl

/-- Every index of the output array is in the block of its batch entry's point. -/
theorem cover2 (i : S16x64x32768.Idx) : ∃ t : Fin cfg0.N, (cfg0.win 2).flush t = true ∧ i ∈ ((cfg0.win 2).blk t).view.set := by
  have hi0 : (i 0).val < 16 := (i 0).isLt
  have hi1 : (i 1).val < 64 := (i 1).isLt
  have hi2 : (i 2).val < 32768 := (i 2).isLt
  obtain ⟨t, ht⟩ := idx_onto ⟨(i 0).val, hi0⟩
  have q0 : win0_2.index t (0 : Fin 3) = (i 0).val := congrFun ht 0
  have q1 : win0_2.index t (1 : Fin 3) = 0 := congrFun ht 1
  have q2 : win0_2.index t (2 : Fin 3) = 0 := congrFun ht 2
  refine ⟨t, flush0_2 t, ?_⟩
  rw [mem_blk2]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 64 ≤ (i 1).val ∧ (i 1).val < win0_2.index t (1 : Fin 3) * 64 + 64; omega
  | ⟨2, _⟩ => show win0_2.index t (2 : Fin 3) * 32768 ≤ (i 2).val ∧ (i 2).val < win0_2.index t (2 : Fin 3) * 32768 + 32768; omega

/-- The output array after the region: `attnArr` of the two arrays as the region finds them. -/
theorem final2 (c : Dev nD) :
    (dat0 V c).arrAt 2 cfg0.N = attnArr (V c main_v1) (V c main_v2) :=
  (dat0 V c).arrAt_eq_of_cover 2 (attnArr (V c main_v1) (V c main_v2)) (fun t _ => flushed2_eq V c t) cover2

end Cert.KernelIdeal.AttnRegion

end
-- ==== Proof.ProjRegion.lean ====
/-
  What the projection region leaves in its output array.  The grid is 16 × 4: point (b, q) reads the 1024 × 512
  block q of batch entry b of the re-read attention output, the whole 512 × 512 weight and the 512 × 1 bias, and
  writes the 512 × 1024 block (b, ·, q) of the output: entry (d, j) is the sum over c' of weight[d, c'] times
  block[j, c'], plus bias[d].  The 64 blocks tile the output array, so it ends holding one function of the three
  arrays the region finds: `projArr`.
-/
import proofs.«102795_j66219805769965_2_alg».proof.Proof.Gen.KernelIdeal.Frame
import proofs.«102795_j66219805769965_2_alg».proof.Proof.Spec
import proofs.«102795_j66219805769965_2_alg».proof.Proof.Pay
import Idealize.ShloMosaic.Lib.Pipeline.Value
import Idealize.ShloMosaic.Lib.ValueIdx

set_option maxRecDepth 16384

noncomputable section

namespace Cert.KernelIdeal.ProjRegion

open Cert.KernelIdeal Cert.KernelIdeal.Gen
open Idealize.ShloMosaic Idealize.ShloMosaic.TcCoe Idealize.ShloMosaic.ValueIdx Idealize.SL.Sem
open Idealize.ShloMosaic.Pipeline (Dat)

/-- The output array as one function of the three arrays the region reads: entry (b, d, n') is the sum over c' of
    weight[d, c'] · tokens[b, n', c'], plus bias[d]. -/
def projArr (a4 : S16x4096x512.Idx → EReal) (a5 : S512x512.Idx → EReal) (a6 : S512x1.Idx → EReal) : S16x512x4096.Idx → EReal :=
  fun i => (∑ c' : Fin 512, a5 (ix2 ⟨(i 1).val, (i 1).isLt⟩ c') * a4 (ix3 ⟨(i 0).val, (i 0).isLt⟩ ⟨(i 2).val, (i 2).isLt⟩ c'))
    + a6 (ix2 ⟨(i 1).val, (i 1).isLt⟩ (0 : Fin 1))

/-- A block's entry (d, j), from the blocks the point loaded: when those blocks are the arrays' entries that the
    output index `i` names, the body's value is `projArr` at `i`. -/
theorem block_value (a4 : S16x4096x512.Idx → EReal) (a5 : S512x512.Idx → EReal) (a6 : S512x1.Idx → EReal)
    (x0 : Vec Ideal S1x1024x512 .bf16) (x1 : Vec Ideal S512x512 .bf16) (x2 : Vec Ideal S512x1 .f32)
    (i : S16x512x4096.Idx) (d : Fin 512) (j : Fin 1024)
    (h0 : ∀ c' : Fin 512, x0 (ix3 (0 : Fin 1) j c') = a4 (ix3 ⟨(i 0).val, (i 0).isLt⟩ ⟨(i 2).val, (i 2).isLt⟩ c'))
    (h1 : ∀ c' : Fin 512, x1 (ix2 d c') = a5 (ix2 ⟨(i 1).val, (i 1).isLt⟩ c'))
    (h2 : x2 (ix2 d (0 : Fin 1)) = a6 (ix2 ⟨(i 1).val, (i 1).isLt⟩ (0 : Fin 1))) :
    k1_pay1 (F := Ideal) x0 x1 x2 (ix3 (0 : Fin 1) d j) = projArr a4 a5 a6 i := by
  rw [Pay.proj_payload]
  unfold projArr
  rw [h2]
  exact congrArg (· + _) (Finset.sum_congr rfl fun c' _ => by rw [h0, h1])

variable (V : (c : Dev nD) → (b : Ref sig .tc) → Buf (Elt Ideal) ((c : Thread nD τ).loc b))

theorem hz3 : (![0, 0, 0] : Fin 3 → Nat) = fun _ => 0 := funext fun a => by fin_cases a <;> rfl
theorem hz2 : (![0, 0] : Fin 2 → Nat) = fun _ => 0 := funext fun a => by fin_cases a <;> rfl

/-- The printed index maps over the grid: the token window follows the output's batch and token-block indices, the
    weight and bias windows stay at block 0, the output's channel block is 0; and the grid point of a (b, q). -/
theorem idx_facts : ∀ t : Fin cfg1.N, win1_0.index t (0 : Fin 3) = win1_3.index t (0 : Fin 3)
    ∧ win1_0.index t (1 : Fin 3) = win1_3.index t (2 : Fin 3) ∧ win1_0.index t (2 : Fin 3) = 0
    ∧ win1_1.index t (0 : Fin 2) = 0 ∧ win1_1.index t (1 : Fin 2) = 0
    ∧ win1_2.index t (0 : Fin 2) = 0 ∧ win1_2.index t (1 : Fin 2) = 0
    ∧ win1_3.index t (1 : Fin 3) = 0 ∧ win1_3.index t (0 : Fin 3) < 16 ∧ win1_3.index t (2 : Fin 3) < 4 :=
  (by decide +kernel : ∀ t : Fin grid1.N, _)

theorem idx_onto : ∀ (q0 : Fin 16) (q2 : Fin 4), ∃ t : Fin cfg1.N, win1_3.index t = ![q0.val, 0, q2.val] :=
  (by decide +kernel : ∀ (q0 : Fin 16) (q2 : Fin 4), ∃ t : Fin grid1.N, win1_3.index t = ![q0.val, 0, q2.val])

/-- What point `t` writes back is block `t` of `projArr` of the arrays as the region finds them. -/
theorem flushed3_eq (c : Dev nD) (t : Fin cfg1.N) :
    (dat1 V c).flushed 3 t = ((cfg1.win 3).blk t).view.read (Elt Ideal) (projArr (V c main_v4) (V c main_v5) (V c main_v6)) := by
  show (cfg1.win 3).cut (grid1.coords t) ((dat1 V c).after 3 t) = _
  rw [after1_3]
  unfold out1_3
  rw [View.canon_unit_zero hz3]
  simp only [View.ld_unit_zero (S := S1x1024x512) hz3, View.ld_unit_zero (S := S512x512) hz2, View.ld_unit_zero (S := S512x1) hz2]
  obtain ⟨e0, e1, e2, e3, e4, e5, e6, e7, e8, e9⟩ := idx_facts t
  funext y
  obtain ⟨z, d, j, rfl⟩ : ∃ (z : Fin 1) (d : Fin 512) (j : Fin 1024), y = (ix3 z d j : S1x512x1024.Idx) :=
    ⟨y 0, y 1, y 2, eq_ix3 (n0 := 1) (n1 := 512) (n2 := 1024) y⟩
  obtain rfl : z = 0 := Subsingleton.elim _ _
  show k1_pay1 (F := Ideal) (iblk1 V c 0 t) (iblk1 V c 1 t) (iblk1 V c 2 t) (ix3 (0 : Fin 1) d j)
    = projArr (V c main_v4) (V c main_v5) (V c main_v6) (((cfg1.win 3).blk t).view.emb (ix3 (0 : Fin 1) d j))
  refine block_value (V c main_v4) (V c main_v5) (V c main_v6) (iblk1 V c 0 t) (iblk1 V c 1 t) (iblk1 V c 2 t) _ d j ?_ ?_ ?_
  · intro c'
    show V c main_v4 (((cfg1.win 0).blk t).view.emb (ix3 (0 : Fin 1) j c')) = V c main_v4 _
    refine congrArg (V c main_v4) (funext fun a => Fin.ext ?_)
    match a with
    | ⟨0, _⟩ => show win1_0.index t (0 : Fin 3) * 1 + 1 * 0 = win1_3.index t (0 : Fin 3) * 1 + 1 * 0; omega
    | ⟨1, _⟩ => show win1_0.index t (1 : Fin 3) * 1024 + 1 * j.val = win1_3.index t (2 : Fin 3) * 1024 + 1 * j.val; omega
    | ⟨2, _⟩ => show win1_0.index t (2 : Fin 3) * 512 + 1 * c'.val = c'.val; omega
  · intro c'
    show V c main_v5 (((cfg1.win 1).blk t).view.emb (ix2 d c')) = V c main_v5 _
    refine congrArg (V c main_v5) (funext fun a => Fin.ext ?_)
    match a with
    | ⟨0, _⟩ => show win1_1.index t (0 : Fin 2) * 512 + 1 * d.val = win1_3.index t (1 : Fin 3) * 512 + 1 * d.val; omega
    | ⟨1, _⟩ => show win1_1.index t (1 : Fin 2) * 512 + 1 * c'.val = c'.val; omega
  · show V c main_v6 (((cfg1.win 2).blk t).view.emb (ix2 d (0 : Fin 1))) = V c main_v6 _
    refine congrArg (V c main_v6) (funext fun a => Fin.ext ?_)
    match a with
    | ⟨0, _⟩ => show win1_2.index t (0 : Fin 2) * 512 + 1 * d.val = win1_3.index t (1 : Fin 3) * 512 + 1 * d.val; omega
    | ⟨1, _⟩ => show win1_2.index t (1 : Fin 2) * 1 + 1 * 0 = 0; omega

/-- An index of the output array is in point `t`'s block iff each coordinate is in the block's range on its axis. -/
theorem mem_blk3 (t : Fin cfg1.N) (i : S16x512x4096.Idx) :
    i ∈ ((cfg1.win 3).blk t).view.set ↔ ∀ a : Fin 3, win1_3.index t a * S1x512x1024.size a ≤ (i a).val ∧ (i a).val < win1_3.index t a * S1x512x1024.size a + S1x512x1024.size a := by
  show i ∈ ((View.whole main_v7).slice (win1_3.rect t)).set ↔ _
  rw [View.set_slice_whole, Rect.mem_set_unit]
  exact Iff.rfl

/-- Every index of the output array is in some point's block: batch entry (i 0), token block (i 2) / 1024. -/
theorem cover3 (i : S16x512x4096.Idx) : ∃ t : Fin cfg1.N, (cfg1.win 3).flush t = true ∧ i ∈ ((cfg1.win 3).blk t).view.set := by
  have hi0 : (i 0).val < 16 := (i 0).isLt
  have hi1 : (i 1).val < 512 := (i 1).isLt
  have hi2 : (i 2).val < 4096 := (i 2).isLt
  obtain ⟨t, ht⟩ := idx_onto ⟨(i 0).val, hi0⟩ ⟨(i 2).val / 1024, by omega⟩
  have q0 : win1_3.index t (0 : Fin 3) = (i 0).val := congrFun ht 0
  have q1 : win1_3.index t (1 : Fin 3) = 0 := congrFun ht 1
  have q2 : win1_3.index t (2 : Fin 3) = (i 2).val / 1024 := congrFun ht 2
  refine ⟨t, flush1_3 t, ?_⟩
  rw [mem_blk3]
  intro a
  match a with
  | ⟨0, _⟩ => show win1_3.index t (0 : Fin 3) * 1 ≤ (i 0).val ∧ (i 0).val < win1_3.index t (0 : Fin 3) * 1 + 1; omega
  | ⟨1, _⟩ => show win1_3.index t (1 : Fin 3) * 512 ≤ (i 1).val ∧ (i 1).val < win1_3.index t (1 : Fin 3) * 512 + 512; omega
  | ⟨2, _⟩ => show win1_3.index t (2 : Fin 3) * 1024 ≤ (i 2).val ∧ (i 2).val < win1_3.index t (2 : Fin 3) * 1024 + 1024; omega

/-- The output array after the region: `projArr` of the three arrays as the region finds them. -/
theorem final3 (c : Dev nD) :
    (dat1 V c).arrAt 3 cfg1.N = projArr (V c main_v4) (V c main_v5) (V c main_v6) :=
  (dat1 V c).arrAt_eq_of_cover 3 (projArr (V c main_v4) (V c main_v5) (V c main_v6)) (fun t _ => flushed3_eq V c t) cover3

end Cert.KernelIdeal.ProjRegion

end
-- ==== Proof.KernelTerm.lean ====
/-
  The idealized kernel program's result term is the specification.  The term (read off the program's segments): the
  input reshaped to 16 × 512 × 4096 and the attention weight feed `attnArr` (per batch entry and head, the head's
  64 × 4096 result at columns 4096·h … of row c); that 16 × 64 × 32768 array is re-read as 16 × 4096 × 512 — the same
  row-major positions — and feeds `projArr` with the projection weight and the bias as a column; the 16 × 512 × 4096
  output is re-read as 16 × 512 × 64 × 64.  A change of float format is the identity on the extended reals, and each
  reshape keeps row-major positions, so entry (b, d, h, w) is the specification's `out` at token 64·h + w: position
  512·n' + c' of batch entry b's attention output is row (512·n' + c') / 32768, head ((512·n' + c') / 4096) mod 8,
  token (512·n' + c') mod 4096.
-/
import proofs.«102795_j66219805769965_2_alg».proof.Proof.AttnRegion
import proofs.«102795_j66219805769965_2_alg».proof.Proof.ProjRegion

set_option maxRecDepth 16384

noncomputable section

namespace Cert.KernelIdeal.Chain

open Cert.KernelIdeal Cert.KernelIdeal.Gen
open Idealize.ShloMosaic Idealize.ShloMosaic.TcCoe Idealize.ShloMosaic.ValueIdx Idealize.SL.Sem

/-- The token array the attention region reads: the input reshaped, its float format changed. -/
def tokArr (x0 : S16x512x64x64.Idx → EReal) : S16x512x4096.Idx → EReal :=
  truncf (F := Ideal) .bf16 (shapeCast S16x512x4096 x0 shapeCasts_S16x512x64x64_S16x512x4096 : FVec Ideal S16x512x4096 .f32) bitsLt_bf16_f32
/-- The weight array the attention region reads. -/
def wArr (x1 : S1536x512.Idx → EReal) : S1536x512.Idx → EReal :=
  truncf (F := Ideal) .bf16 (x1 : FVec Ideal S1536x512 .f32) bitsLt_bf16_f32
/-- The attention region's output re-read as 16 × 4096 × 512. -/
def mixArr (x0 : S16x512x64x64.Idx → EReal) (x1 : S1536x512.Idx → EReal) : S16x4096x512.Idx → EReal :=
  shapeCast S16x4096x512 (AttnRegion.attnArr (tokArr x0) (wArr x1)) shapeCasts_S16x64x32768_S16x4096x512

/-- The program's result as a term of the four argument arrays. -/
def kernelTerm (x0 : S16x512x64x64.Idx → EReal) (x1 : S1536x512.Idx → EReal) (x2 : S512x512.Idx → EReal) (x3 : S512.Idx → EReal) :
    S16x512x64x64.Idx → EReal :=
  shapeCast S16x512x64x64
    (ProjRegion.projArr (mixArr x0 x1)
      (truncf (F := Ideal) .bf16 (x2 : FVec Ideal S512x512 .f32) bitsLt_bf16_f32)
      (shapeCast S512x1 x3 shapeCasts_S512_S512x1))
    shapeCasts_S16x512x4096_S16x512x64x64

/-- The token array at (b, k, n) is the input at (b, k, n / 64, n mod 64): the reshape keeps row-major positions. -/
theorem tokArr_apply (x0 : S16x512x64x64.Idx → EReal) (b : Fin 16) (k : Fin 512) (n : Fin 4096) :
    tokArr x0 (ix3 b k n) = Cert.Attn.tokens (Cert.Attn.cur4 x0) b k n := by
  unfold tokArr Cert.Attn.tokens Cert.Attn.cur4
  show shapeCast S16x512x4096 x0 shapeCasts_S16x512x64x64_S16x512x4096 (ix3 b k n) = _
  refine shapeCast_apply x0 shapeCasts_S16x512x64x64_S16x512x4096 (ix3 b k n) _ ?_
  rewrite [Shape.rowMajor_val_four, Shape.rowMajor_val_three]
  have hb := b.isLt; have hk := k.isLt; have hn := n.isLt
  show ((b.val * 512 + k.val) * 64 + n.val / 64) * 64 + n.val % 64 = (b.val * 512 + k.val) * 4096 + n.val
  omega

/-- A head read off the two arrays the attention region reads is the specification's head. -/
theorem headOf_eq (x0 : S16x512x64x64.Idx → EReal) (x1 : S1536x512.Idx → EReal) (b : Fin 16) (h : Fin 8) (c : Fin 64) (n : Fin 4096) :
    AttnRegion.headOf (tokArr x0) (wArr x1) b h c n = Cert.Attn.attn (Cert.Attn.cur4 x0) (Cert.Attn.cur2w x1) b h c n := by
  unfold AttnRegion.headOf Cert.Attn.attn
  rw [show (fun (k : Fin 512) (n : Fin 4096) => tokArr x0 (ix3 b k n)) = Cert.Attn.tokens (Cert.Attn.cur4 x0) b from
    funext fun k => funext fun n => tokArr_apply x0 b k n]
  rfl

/-- The re-read attention output at (b, n', c') is the specification's `mixed`. -/
theorem mixArr_apply (x0 : S16x512x64x64.Idx → EReal) (x1 : S1536x512.Idx → EReal) (b : Fin 16) (n' : Fin 4096) (c' : Fin 512) :
    mixArr x0 x1 (ix3 b n' c') = Cert.Attn.mixed (Cert.Attn.cur4 x0) (Cert.Attn.cur2w x1) b n' c' := by
  have hb := b.isLt; have hn := n'.isLt; have hc := c'.isLt
  unfold mixArr Cert.Attn.mixed
  refine (shapeCast_apply _ shapeCasts_S16x64x32768_S16x4096x512 (ix3 b n' c')
    (ix3 b (⟨(n'.val * 512 + c'.val) / 32768, by omega⟩ : Fin 64) (⟨(n'.val * 512 + c'.val) % 32768, by omega⟩ : Fin 32768)) ?_).trans ?_
  · rewrite [Shape.rowMajor_val_three, Shape.rowMajor_val_three]
    show (b.val * 64 + (n'.val * 512 + c'.val) / 32768) * 32768 + (n'.val * 512 + c'.val) % 32768 = (b.val * 4096 + n'.val) * 512 + c'.val
    omega
  · unfold AttnRegion.attnArr
    refine Eq.trans ?_ (headOf_eq x0 x1 b _ _ _)
    have eh : (⟨(n'.val * 512 + c'.val) % 32768 / 4096, by omega⟩ : Fin 8) = ⟨(n'.val * 512 + c'.val) / 4096 % 8, by omega⟩ :=
      Fin.ext (by show (n'.val * 512 + c'.val) % 32768 / 4096 = (n'.val * 512 + c'.val) / 4096 % 8; omega)
    have en : (⟨(n'.val * 512 + c'.val) % 32768 % 4096, Nat.mod_lt _ (by decide)⟩ : Fin 4096) = ⟨(n'.val * 512 + c'.val) % 4096, by omega⟩ :=
      Fin.ext (by show (n'.val * 512 + c'.val) % 32768 % 4096 = (n'.val * 512 + c'.val) % 4096; omega)
    exact congr (congr (congrArg (AttnRegion.headOf (tokArr x0) (wArr x1) b) eh) rfl) en

/-- The result term is the specification. -/
theorem kernelTerm_eq (x0 : S16x512x64x64.Idx → EReal) (x1 : S1536x512.Idx → EReal) (x2 : S512x512.Idx → EReal) (x3 : S512.Idx → EReal) :
    kernelTerm x0 x1 x2 x3 = Cert.Attn.G x0 x1 x2 x3 := by
  funext i
  obtain ⟨b, d, hh, ww, rfl⟩ : ∃ (b : Fin 16) (d : Fin 512) (hh : Fin 64) (ww : Fin 64), i = ix4 b d hh ww :=
    ⟨i 0, i 1, i 2, i 3, eq_ix4 i⟩
  have hb := b.isLt; have hd := d.isLt; have h2 := hh.isLt; have h3 := ww.isLt
  unfold kernelTerm
  refine (shapeCast_apply _ shapeCasts_S16x512x4096_S16x512x64x64 (ix4 b d hh ww)
    (ix3 b d (⟨hh.val * 64 + ww.val, by omega⟩ : Fin 4096)) ?_).trans ?_
  · rewrite [Shape.rowMajor_val_three, Shape.rowMajor_val_four]
    show (b.val * 512 + d.val) * 4096 + (hh.val * 64 + ww.val) = ((b.val * 512 + d.val) * 64 + hh.val) * 64 + ww.val
    omega
  · show (∑ c' : Fin 512, x2 (ix2 d c') * mixArr x0 x1 (ix3 b (⟨hh.val * 64 + ww.val, by omega⟩ : Fin 4096) c'))
        + shapeCast S512x1 x3 shapeCasts_S512_S512x1 (ix2 d (0 : Fin 1))
      = (∑ c' : Fin 512, Cert.Attn.cur2p x2 d c' * Cert.Attn.mixed (Cert.Attn.cur4 x0) (Cert.Attn.cur2w x1) b ⟨hh.val * 64 + ww.val, by omega⟩ c')
        + Cert.Attn.cur1 x3 d
    have e6 : shapeCast S512x1 x3 shapeCasts_S512_S512x1 (ix2 d (0 : Fin 1)) = Cert.Attn.cur1 x3 d := by
      unfold Cert.Attn.cur1
      refine shapeCast_apply x3 shapeCasts_S512_S512x1 (ix2 d (0 : Fin 1)) (ix1 d) ?_
      rewrite [Shape.rowMajor_val_one, Shape.rowMajor_val_two]
      show d.val = d.val * 1 + 0
      omega
    rw [e6]
    exact congrArg (· + _) (Finset.sum_congr rfl fun c' _ => by rw [mixArr_apply]; rfl)

end Cert.KernelIdeal.Chain

end
-- ==== Proof.KernelChain.lean ====
/-
  The idealized kernel program's result, read back through its segments.  From the end: the result is the last
  reshape of the projection region's output; that output is `projArr` of what the middle host operations leave (the
  attention region's output re-read as 16 × 4096 × 512, the projection weight with its float format changed, the
  bias reshaped to a column); the attention region's output is `attnArr` of what the first host operations leave
  (the input reshaped to 16 × 512 × 4096 and the attention weight, their float formats changed).  No host operation
  and no region writes an argument array, so wherever a later segment reads one it reads the launch contents.
-/
import proofs.«102795_j66219805769965_2_alg».proof.Proof.KRun
import proofs.«102795_j66219805769965_2_alg».proof.Proof.KernelTerm
import Idealize.ShloMosaic.Lib.StableHlo.Run

set_option maxRecDepth 16384

noncomputable section

namespace Cert.KernelIdeal.Chain

open Cert.KernelIdeal Cert.KernelIdeal.Gen
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg)

/-- What the first host operations leave in the two arrays the attention region reads. -/
theorem entry_tokens (c : Dev nD) :
    (V1 m ρ c main_v1 : S16x512x4096.Idx → EReal) = tokArr (m ((c : Thread nD τ).loc main_arg0)) := by
  unfold tokArr
  dsimp only [V1, W1, hostOps0]
  after_results <;> rfl
theorem entry_weight (c : Dev nD) :
    (V1 m ρ c main_v2 : S1536x512.Idx → EReal) = wArr (m ((c : Thread nD τ).loc main_arg1)) := by
  unfold wArr
  dsimp only [V1, W1, hostOps0]
  after_results <;> rfl

/-- The attention region's output array after the region. -/
theorem attn_out (c : Dev nD) :
    (W2 m ρ c (Proc.devRef .tc main_v3) : S16x64x32768.Idx → EReal)
      = AttnRegion.attnArr (tokArr (m ((c : Thread nD τ).loc main_arg0))) (wArr (m ((c : Thread nD τ).loc main_arg1))) := by
  refine (W2_arr m ρ c 2).trans ?_
  rw [AttnRegion.final2 (V1 m ρ) c, entry_tokens, entry_weight]

/-- The projection weight and the bias are as launched when the middle host operations read them. -/
theorem W2_main_arg2 (c : Dev nD) : W2 m ρ c (Proc.devRef .tc main_arg2) = m ((c : Thread nD τ).loc main_arg2) :=
  (W2_of_ne m ρ c main_arg2 (by decide)).trans (by dsimp only [W1, hostOps0]; after_results <;> rfl)
theorem W2_main_arg3 (c : Dev nD) : W2 m ρ c (Proc.devRef .tc main_arg3) = m ((c : Thread nD τ).loc main_arg3) :=
  (W2_of_ne m ρ c main_arg3 (by decide)).trans (by dsimp only [W1, hostOps0]; after_results <;> rfl)

/-- What the middle host operations leave in the three arrays the projection region reads. -/
theorem mid_tokens (c : Dev nD) :
    (V3 m ρ c main_v4 : S16x4096x512.Idx → EReal)
      = mixArr (m ((c : Thread nD τ).loc main_arg0)) (m ((c : Thread nD τ).loc main_arg1)) := by
  unfold mixArr
  dsimp only [V3, W3, hostOps1]
  after_results
  rw [attn_out]
  rfl
theorem mid_weight (c : Dev nD) :
    (V3 m ρ c main_v5 : S512x512.Idx → EReal)
      = truncf (F := Ideal) .bf16 (m ((c : Thread nD τ).loc main_arg2) : FVec Ideal S512x512 .f32) bitsLt_bf16_f32 := by
  dsimp only [V3, W3, hostOps1]
  after_results
  rw [W2_main_arg2]
theorem mid_bias (c : Dev nD) :
    (V3 m ρ c main_v6 : S512x1.Idx → EReal) = shapeCast S512x1 (m ((c : Thread nD τ).loc main_arg3)) shapeCasts_S512_S512x1 := by
  dsimp only [V3, W3, hostOps1]
  after_results
  rw [W2_main_arg3]
  rfl

/-- The result array after the run is the result term of the launch contents of the four arguments. -/
theorem result_eq (c : Dev nD) :
    (W5 m ρ c (Proc.devRef .tc main_v8) : S16x512x64x64.Idx → EReal)
      = kernelTerm (m ((c : Thread nD τ).loc main_arg0)) (m ((c : Thread nD τ).loc main_arg1))
          (m ((c : Thread nD τ).loc main_arg2)) (m ((c : Thread nD τ).loc main_arg3)) := by
  unfold kernelTerm
  dsimp only [W5, hostOps2]
  after_results
  rw [show W4 m ρ c (Proc.devRef .tc main_v7) = (dat1 (V3 m ρ) c).arrAt 3 cfg1.N from W4_arr m ρ c 3,
    ProjRegion.final3 (V3 m ρ) c, mid_tokens, mid_weight, mid_bias]
  rfl

end Cert.KernelIdeal.Chain

end
-- ==== Proof.RefProj.lean ====
import proofs.«102795_j66219805769965_2_alg».proof.Proof.Gen.ReferenceIdeal.Read
import proofs.«102795_j66219805769965_2_alg».proof.Proof.Spec

noncomputable section

namespace Cert.ReferenceIdeal.RefValue

open Cert.ReferenceIdeal Cert.ReferenceIdeal.Read Idealize.ShloMosaic Idealize.ShloMosaic.ValueIdx

theorem v3_at (x0 : (⟨S16x512x64x64, .f32⟩ : BufTy).Contents (Elt Ideal)) (x1 : (⟨S1536x512, .f32⟩ : BufTy).Contents (Elt Ideal))
    (b : Fin 16) (s : Fin 3) (h : Fin 8) (c : Fin 64) (n : Fin 4096) :
    val_main_v3 (F := Ideal) x0 x1 (ix5 b s h c n)
      = Attn.proj (Attn.wslice (Attn.cur2w x1) s h) (Attn.tokens (Attn.cur4 x0) b) c n := by
  rw [val_main_v3_apply, val_main_v2_apply, val_main_v1_apply]
  unfold Attn.proj
  refine Finset.sum_congr rfl fun k _ => ?_
  rw [val_main_v0_apply, mul_comm]
  unfold Attn.wslice Attn.tokens Attn.cur2w Attn.cur4
  have hb := b.isLt; have hs := s.isLt; have hh := h.isLt; have hc := c.isLt; have hn := n.isLt
  have e1 : ridx_main_v1 (idx_main_v2 (idx_main_v3 (ix5 b s h c n))) k
      = ix2 (⟨s.val * 512 + h.val * 64 + c.val, by omega⟩ : Fin 1536) k := funext fun a => Fin.ext (by
    match a with
    | ⟨0, _⟩ => show ((((b.val * 3 + s.val) * 8 + h.val) * 64 + c.val) * 4096 + n.val) / 4096 % 1536 = s.val * 512 + h.val * 64 + c.val; omega
    | ⟨1, _⟩ => rfl)
  have e0 : idx_main_v0 (lidx_main_v1 (idx_main_v2 (idx_main_v3 (ix5 b s h c n))) k)
      = ix4 b k (⟨n.val / 64, by omega⟩ : Fin 64) (⟨n.val % 64, by omega⟩ : Fin 64) := funext fun a => Fin.ext (by
    match a with
    | ⟨0, _⟩ => show ((((b.val * 3 + s.val) * 8 + h.val) * 64 + c.val) * 4096 + n.val) / 6291456 = b.val; omega
    | ⟨1, _⟩ => rfl
    | ⟨2, _⟩ => show ((((b.val * 3 + s.val) * 8 + h.val) * 64 + c.val) * 4096 + n.val) / 64 % 64 = n.val / 64; omega
    | ⟨3, _⟩ => show ((((b.val * 3 + s.val) * 8 + h.val) * 64 + c.val) * 4096 + n.val) % 64 = n.val % 64; omega)
  rw [e1, e0]

/-- Projection number s (0, 1, 2) of head h of batch entry b: a 64 × 4096 matrix. -/
def T (x0 : (⟨S16x512x64x64, .f32⟩ : BufTy).Contents (Elt Ideal)) (x1 : (⟨S1536x512, .f32⟩ : BufTy).Contents (Elt Ideal))
    (s : Fin 3) (b : Fin 16) (h : Fin 8) : Fin 64 → Fin 4096 → EReal :=
  Attn.proj (Attn.wslice (Attn.cur2w x1) s h) (Attn.tokens (Attn.cur4 x0) b)

theorem v5_at (x0 : (⟨S16x512x64x64, .f32⟩ : BufTy).Contents (Elt Ideal)) (x1 : (⟨S1536x512, .f32⟩ : BufTy).Contents (Elt Ideal))
    (b : Fin 16) (h : Fin 8) (c : Fin 64) (n : Fin 4096) :
    val_main_v5 (F := Ideal) x0 x1 (ix4 b h c n) = T x0 x1 0 b h c n := by
  rw [val_main_v5_apply, val_main_v4_apply]
  have hb := b.isLt; have hh := h.isLt; have hc := c.isLt; have hn := n.isLt
  have e : idx_main_v4 (idx_main_v5 (ix4 b h c n)) = ix5 b (0 : Fin 3) h c n := funext fun a => Fin.ext (by
    match a with
    | ⟨0, _⟩ => show (((b.val * 8 + h.val) * 64 + c.val) * 4096 + n.val) / 2097152 = b.val; omega
    | ⟨1, _⟩ => rfl
    | ⟨2, _⟩ => show (((b.val * 8 + h.val) * 64 + c.val) * 4096 + n.val) / 262144 % 8 = h.val; omega
    | ⟨3, _⟩ => show (((b.val * 8 + h.val) * 64 + c.val) * 4096 + n.val) / 4096 % 64 = c.val; omega
    | ⟨4, _⟩ => show (((b.val * 8 + h.val) * 64 + c.val) * 4096 + n.val) % 4096 = n.val; omega)
  rw [e]; exact v3_at x0 x1 b 0 h c n

theorem v7_at (x0 : (⟨S16x512x64x64, .f32⟩ : BufTy).Contents (Elt Ideal)) (x1 : (⟨S1536x512, .f32⟩ : BufTy).Contents (Elt Ideal))
    (b : Fin 16) (h : Fin 8) (c : Fin 64) (n : Fin 4096) :
    val_main_v7 (F := Ideal) x0 x1 (ix4 b h c n) = T x0 x1 1 b h c n := by
  rw [val_main_v7_apply, val_main_v6_apply]
  have hb := b.isLt; have hh := h.isLt; have hc := c.isLt; have hn := n.isLt
  have e : idx_main_v6 (idx_main_v7 (ix4 b h c n)) = ix5 b (1 : Fin 3) h c n := funext fun a => Fin.ext (by
    match a with
    | ⟨0, _⟩ => show (((b.val * 8 + h.val) * 64 + c.val) * 4096 + n.val) / 2097152 = b.val; omega
    | ⟨1, _⟩ => rfl
    | ⟨2, _⟩ => show (((b.val * 8 + h.val) * 64 + c.val) * 4096 + n.val) / 262144 % 8 = h.val; omega
    | ⟨3, _⟩ => show (((b.val * 8 + h.val) * 64 + c.val) * 4096 + n.val) / 4096 % 64 = c.val; omega
    | ⟨4, _⟩ => show (((b.val * 8 + h.val) * 64 + c.val) * 4096 + n.val) % 4096 = n.val; omega)
  rw [e]; exact v3_at x0 x1 b 1 h c n

theorem v9_at (x0 : (⟨S16x512x64x64, .f32⟩ : BufTy).Contents (Elt Ideal)) (x1 : (⟨S1536x512, .f32⟩ : BufTy).Contents (Elt Ideal))
    (b : Fin 16) (h : Fin 8) (c : Fin 64) (n : Fin 4096) :
    val_main_v9 (F := Ideal) x0 x1 (ix4 b h c n) = T x0 x1 2 b h c n := by
  rw [val_main_v9_apply, val_main_v8_apply]
  have hb := b.isLt; have hh := h.isLt; have hc := c.isLt; have hn := n.isLt
  have e : idx_main_v8 (idx_main_v9 (ix4 b h c n)) = ix5 b (2 : Fin 3) h c n := funext fun a => Fin.ext (by
    match a with
    | ⟨0, _⟩ => show (((b.val * 8 + h.val) * 64 + c.val) * 4096 + n.val) / 2097152 = b.val; omega
    | ⟨1, _⟩ => rfl
    | ⟨2, _⟩ => show (((b.val * 8 + h.val) * 64 + c.val) * 4096 + n.val) / 262144 % 8 = h.val; omega
    | ⟨3, _⟩ => show (((b.val * 8 + h.val) * 64 + c.val) * 4096 + n.val) / 4096 % 64 = c.val; omega
    | ⟨4, _⟩ => show (((b.val * 8 + h.val) * 64 + c.val) * 4096 + n.val) % 4096 = n.val; omega)
  rw [e]; exact v3_at x0 x1 b 2 h c n

/-- The three projections as functions of the index. -/
theorem v5_eq (x0 : (⟨S16x512x64x64, .f32⟩ : BufTy).Contents (Elt Ideal)) (x1 : (⟨S1536x512, .f32⟩ : BufTy).Contents (Elt Ideal)) :
    val_main_v5 (F := Ideal) x0 x1 = fun i => T x0 x1 0 (i 0) (i 1) (i 2) (i 3) := by
  funext i
  obtain ⟨b, h, c, n, rfl⟩ : ∃ (b : Fin 16) (h : Fin 8) (c : Fin 64) (n : Fin 4096), i = ix4 b h c n := ⟨_, _, _, _, eq_ix4 i⟩
  exact v5_at x0 x1 b h c n

theorem v7_eq (x0 : (⟨S16x512x64x64, .f32⟩ : BufTy).Contents (Elt Ideal)) (x1 : (⟨S1536x512, .f32⟩ : BufTy).Contents (Elt Ideal)) :
    val_main_v7 (F := Ideal) x0 x1 = fun i => T x0 x1 1 (i 0) (i 1) (i 2) (i 3) := by
  funext i
  obtain ⟨b, h, c, n, rfl⟩ : ∃ (b : Fin 16) (h : Fin 8) (c : Fin 64) (n : Fin 4096), i = ix4 b h c n := ⟨_, _, _, _, eq_ix4 i⟩
  exact v7_at x0 x1 b h c n

theorem v9_eq (x0 : (⟨S16x512x64x64, .f32⟩ : BufTy).Contents (Elt Ideal)) (x1 : (⟨S1536x512, .f32⟩ : BufTy).Contents (Elt Ideal)) :
    val_main_v9 (F := Ideal) x0 x1 = fun i => T x0 x1 2 (i 0) (i 1) (i 2) (i 3) := by
  funext i
  obtain ⟨b, h, c, n, rfl⟩ : ∃ (b : Fin 16) (h : Fin 8) (c : Fin 64) (n : Fin 4096), i = ix4 b h c n := ⟨_, _, _, _, eq_ix4 i⟩
  exact v9_at x0 x1 b h c n

end Cert.ReferenceIdeal.RefValue
-- ==== Proof.RefNorm.lean ====
import proofs.«102795_j66219805769965_2_alg».proof.Proof.Gen.ReferenceIdeal.Read
import proofs.«102795_j66219805769965_2_alg».proof.Proof.Spec
import proofs.«102795_j66219805769965_2_alg».proof.Proof.RefProj

noncomputable section

namespace Cert.ReferenceIdeal.RefValue

open Cert.ReferenceIdeal Cert.ReferenceIdeal.Read Idealize.ShloMosaic Idealize.ShloMosaic.ValueIdx

theorem v17_at (x0 : (⟨S16x512x64x64, .f32⟩ : BufTy).Contents (Elt Ideal)) (x1 : (⟨S1536x512, .f32⟩ : BufTy).Contents (Elt Ideal))
    (b : Fin 16) (h : Fin 8) (c : Fin 64) (n : Fin 4096) :
    val_main_v17 (F := Ideal) x0 x1 (ix4 b h c n) = Attn.normalized (T x0 x1 0 b h) c n := by
  rw [val_main_v17_apply, val_main_v16_apply, val_main_v15_apply, val_main_v13_apply, val_main_v12_apply, val_main_v11_apply,
    val_main_v14_apply, val_main_cst_0_apply, val_main_cst_apply]
  simp only [Ideal.hostDivf_def, Ideal.maximumf_def, Ideal.hostUnary_sqrt_def, Ideal.ofBits_def, Ideal.ofBits_zero_f32, zero_add,
    val_main_v10_apply, Ideal.mulf_def]
  rw [v5_eq]
  unfold Attn.normalized Attn.rowNorm
  rfl

theorem v25_at (x0 : (⟨S16x512x64x64, .f32⟩ : BufTy).Contents (Elt Ideal)) (x1 : (⟨S1536x512, .f32⟩ : BufTy).Contents (Elt Ideal))
    (b : Fin 16) (h : Fin 8) (c : Fin 64) (n : Fin 4096) :
    val_main_v25 (F := Ideal) x0 x1 (ix4 b h c n) = Attn.normalized (T x0 x1 1 b h) c n := by
  rw [val_main_v25_apply, val_main_v24_apply, val_main_v23_apply, val_main_v21_apply, val_main_v20_apply, val_main_v19_apply,
    val_main_v22_apply, val_main_cst_2_apply, val_main_cst_1_apply]
  simp only [Ideal.hostDivf_def, Ideal.maximumf_def, Ideal.hostUnary_sqrt_def, Ideal.ofBits_def, Ideal.ofBits_zero_f32, zero_add,
    val_main_v18_apply, Ideal.mulf_def]
  rw [v7_eq]
  unfold Attn.normalized Attn.rowNorm
  rfl

/-- The two row-normalised projections as functions of the index. -/
theorem v17_eq (x0 : (⟨S16x512x64x64, .f32⟩ : BufTy).Contents (Elt Ideal)) (x1 : (⟨S1536x512, .f32⟩ : BufTy).Contents (Elt Ideal)) :
    val_main_v17 (F := Ideal) x0 x1 = fun i => Attn.normalized (T x0 x1 0 (i 0) (i 1)) (i 2) (i 3) := by
  funext i
  obtain ⟨b, h, c, n, rfl⟩ : ∃ (b : Fin 16) (h : Fin 8) (c : Fin 64) (n : Fin 4096), i = ix4 b h c n := ⟨_, _, _, _, eq_ix4 i⟩
  exact v17_at x0 x1 b h c n

theorem v25_eq (x0 : (⟨S16x512x64x64, .f32⟩ : BufTy).Contents (Elt Ideal)) (x1 : (⟨S1536x512, .f32⟩ : BufTy).Contents (Elt Ideal)) :
    val_main_v25 (F := Ideal) x0 x1 = fun i => Attn.normalized (T x0 x1 1 (i 0) (i 1)) (i 2) (i 3) := by
  funext i
  obtain ⟨b, h, c, n, rfl⟩ : ∃ (b : Fin 16) (h : Fin 8) (c : Fin 64) (n : Fin 4096), i = ix4 b h c n := ⟨_, _, _, _, eq_ix4 i⟩
  exact v25_at x0 x1 b h c n

end Cert.ReferenceIdeal.RefValue
-- ==== Proof.RefLogits.lean ====
import proofs.«102795_j66219805769965_2_alg».proof.Proof.Gen.ReferenceIdeal.Read
import proofs.«102795_j66219805769965_2_alg».proof.Proof.Spec
import proofs.«102795_j66219805769965_2_alg».proof.Proof.RefProj
import proofs.«102795_j66219805769965_2_alg».proof.Proof.RefNorm

noncomputable section

namespace Cert.ReferenceIdeal.RefValue

open Cert.ReferenceIdeal Cert.ReferenceIdeal.Read Idealize.ShloMosaic Idealize.ShloMosaic.ValueIdx

/-- The scaled inner products of the two row-normalised projections of head h of batch entry b. -/
def L (x0 : (⟨S16x512x64x64, .f32⟩ : BufTy).Contents (Elt Ideal)) (x1 : (⟨S1536x512, .f32⟩ : BufTy).Contents (Elt Ideal)) (b : Fin 16) (h : Fin 8) : Fin 64 → Fin 64 → EReal :=
  Attn.logits (T x0 x1 0 b h) (T x0 x1 1 b h)

theorem v28_at (x0 : (⟨S16x512x64x64, .f32⟩ : BufTy).Contents (Elt Ideal)) (x1 : (⟨S1536x512, .f32⟩ : BufTy).Contents (Elt Ideal))
    (b : Fin 16) (h : Fin 8) (c d : Fin 64) :
    val_main_v28 (F := Ideal) x0 x1 (ix4 b h c d) = L x0 x1 b h c d := by
  rw [val_main_v28_apply, val_main_v26_apply, val_main_v27_apply, val_main_cst_3_apply]
  simp only [Ideal.mulf_def, Ideal.ofBits_def]
  rw [v17_eq, v25_eq]
  unfold L Attn.logits
  rfl

theorem v28_eq (x0 : (⟨S16x512x64x64, .f32⟩ : BufTy).Contents (Elt Ideal)) (x1 : (⟨S1536x512, .f32⟩ : BufTy).Contents (Elt Ideal)) :
    val_main_v28 (F := Ideal) x0 x1 = fun i => L x0 x1 (i 0) (i 1) (i 2) (i 3) := by
  funext i
  obtain ⟨b, h, c, d, rfl⟩ : ∃ (b : Fin 16) (h : Fin 8) (c : Fin 64) (d : Fin 64), i = ix4 b h c d := ⟨_, _, _, _, eq_ix4 i⟩
  exact v28_at x0 x1 b h c d

end Cert.ReferenceIdeal.RefValue
-- ==== Proof.RefSoftmax.lean ====
import proofs.«102795_j66219805769965_2_alg».proof.Proof.Gen.ReferenceIdeal.Read
import proofs.«102795_j66219805769965_2_alg».proof.Proof.Spec
import proofs.«102795_j66219805769965_2_alg».proof.Proof.RefProj
import proofs.«102795_j66219805769965_2_alg».proof.Proof.RefNorm
import proofs.«102795_j66219805769965_2_alg».proof.Proof.RefLogits

noncomputable section

namespace Cert.ReferenceIdeal.RefValue

open Cert.ReferenceIdeal Cert.ReferenceIdeal.Gen Cert.ReferenceIdeal.Read Idealize.ShloMosaic Idealize.ShloMosaic.ValueIdx

/-- The start word of the row maximum is the bottom element, so taking the larger with it changes nothing. -/
theorem max_negInf (y : EReal) : max Attn.negInfLit y = y := by
  have e : Attn.negInfLit = ⊥ := by simp [Attn.negInfLit, Ideal.ofBits, Ideal.ieee]
  rw [e]; exact max_bot_left y

/-- The reduced index (b, h, c) with the coordinate k put back on the last axis. -/
theorem lift_ix3 (hR : S16x8x64x64.Reduces [3] S16x8x64) (b : Fin 16) (h : Fin 8) (c : Fin 64)
    (k : Fin (S16x8x64x64.size 3)) : hR.lift (ix3 b h c) k = ix4 b h c (⟨k.val, k.isLt⟩ : Fin 64) := by
  funext a; apply Fin.ext
  fin_cases a <;> rfl

/-- A maximum-reduce over the last axis, from the start word, is the fold of max over the row. -/
theorem reduceMax_at (y : (⟨S16x8x64x64, .f32⟩ : BufTy).Contents (Elt Ideal)) (b : Fin 16) (h : Fin 8) (c : Fin 64) :
    (Host.reduce (FloatOps.maximumf (F := Ideal) (φ := .f32)) y (val_main_cst_4 (F := Ideal)) reducesTo_S16x8x64x64_S16x8x64_d3 h_S_ : S16x8x64.Idx → Ideal .f32) (ix3 b h c)
      = (Finset.univ : Finset (Fin 64)).fold max Attn.negInfLit (fun d => y (ix4 b h c d)) := by
  have hR : S16x8x64x64.Reduces [3] S16x8x64 := by decide
  rw [Host.reduce_eq_fold_single (FloatOps.maximumf (F := Ideal) (φ := .f32)) y _ reducesTo_S16x8x64x64_S16x8x64_d3 hR h_S_]
  have hf : (y ∘ hR.lift (ix3 b h c)) = fun d : Fin 64 => y (ix4 b h c d) :=
    funext fun k => congrArg y (lift_ix3 hR b h c k)
  exact congrArg (fun f => Finset.fold max Attn.negInfLit f (Finset.univ : Finset (Fin 64))) hf

theorem v31_at (x0 : (⟨S16x512x64x64, .f32⟩ : BufTy).Contents (Elt Ideal)) (x1 : (⟨S1536x512, .f32⟩ : BufTy).Contents (Elt Ideal)) (b : Fin 16) (h : Fin 8) (c : Fin 64) :
    val_main_v31 (F := Ideal) x0 x1 (ix3 b h c) = Attn.rowMax (L x0 x1 b h) c := by
  rw [val_main_v31_apply, val_main_v30_apply, val_main_cst_5_apply]
  unfold val_main_v29
  rw [reduceMax_at, v28_eq]
  simp only [Ideal.maximumf_def, Ideal.ofBits_def]
  unfold Attn.rowMax
  exact max_negInf _

theorem v31_eq (x0 : (⟨S16x512x64x64, .f32⟩ : BufTy).Contents (Elt Ideal)) (x1 : (⟨S1536x512, .f32⟩ : BufTy).Contents (Elt Ideal)) :
    val_main_v31 (F := Ideal) x0 x1 = fun j => Attn.rowMax (L x0 x1 (j 0) (j 1)) (j 2) := by
  funext j
  obtain ⟨b, h, c, rfl⟩ : ∃ (b : Fin 16) (h : Fin 8) (c : Fin 64), j = ix3 b h c := ⟨_, _, _, eq_ix3 j⟩
  exact v31_at x0 x1 b h c

end Cert.ReferenceIdeal.RefValue
-- ==== Proof.RefHead.lean ====
import proofs.«102795_j66219805769965_2_alg».proof.Proof.Gen.ReferenceIdeal.Read
import proofs.«102795_j66219805769965_2_alg».proof.Proof.Spec
import proofs.«102795_j66219805769965_2_alg».proof.Proof.RefProj
import proofs.«102795_j66219805769965_2_alg».proof.Proof.RefNorm
import proofs.«102795_j66219805769965_2_alg».proof.Proof.RefLogits
import proofs.«102795_j66219805769965_2_alg».proof.Proof.RefSoftmax

noncomputable section

namespace Cert.ReferenceIdeal.RefValue

open Cert.ReferenceIdeal Cert.ReferenceIdeal.Gen Cert.ReferenceIdeal.Read Idealize.ShloMosaic Idealize.ShloMosaic.ValueIdx

theorem v35_at (x0 : (⟨S16x512x64x64, .f32⟩ : BufTy).Contents (Elt Ideal)) (x1 : (⟨S1536x512, .f32⟩ : BufTy).Contents (Elt Ideal)) (b : Fin 16) (h : Fin 8) (c d : Fin 64) :
    val_main_v35 (F := Ideal) x0 x1 (ix4 b h c d) = Attn.expo (L x0 x1 b h) c d := by
  rw [val_main_v35_apply, val_main_v34_apply, val_main_v33_apply, val_main_v32_apply, v28_eq, v31_eq]
  simp only [Ideal.hostUnary_exp_def, Ideal.subf_def]
  unfold Attn.expo
  rfl

theorem v35_eq (x0 : (⟨S16x512x64x64, .f32⟩ : BufTy).Contents (Elt Ideal)) (x1 : (⟨S1536x512, .f32⟩ : BufTy).Contents (Elt Ideal)) :
    val_main_v35 (F := Ideal) x0 x1 = fun i => Attn.expo (L x0 x1 (i 0) (i 1)) (i 2) (i 3) := by
  funext i
  obtain ⟨b, h, c, d, rfl⟩ : ∃ (b : Fin 16) (h : Fin 8) (c : Fin 64) (d : Fin 64), i = ix4 b h c d := ⟨_, _, _, _, eq_ix4 i⟩
  exact v35_at x0 x1 b h c d

theorem v39_at (x0 : (⟨S16x512x64x64, .f32⟩ : BufTy).Contents (Elt Ideal)) (x1 : (⟨S1536x512, .f32⟩ : BufTy).Contents (Elt Ideal)) (b : Fin 16) (h : Fin 8) (c d : Fin 64) :
    val_main_v39 (F := Ideal) x0 x1 (ix4 b h c d) = Attn.softmax (L x0 x1 b h) c d := by
  rw [val_main_v39_apply, val_main_v38_apply, val_main_v37_apply, val_main_v36_apply, val_main_cst_6_apply, v35_eq]
  simp only [Ideal.hostDivf_def, Ideal.ofBits_def, Ideal.ofBits_zero_f32, zero_add]
  unfold Attn.softmax
  rfl

theorem v39_eq (x0 : (⟨S16x512x64x64, .f32⟩ : BufTy).Contents (Elt Ideal)) (x1 : (⟨S1536x512, .f32⟩ : BufTy).Contents (Elt Ideal)) :
    val_main_v39 (F := Ideal) x0 x1 = fun i => Attn.softmax (L x0 x1 (i 0) (i 1)) (i 2) (i 3) := by
  funext i
  obtain ⟨b, h, c, d, rfl⟩ : ∃ (b : Fin 16) (h : Fin 8) (c : Fin 64) (d : Fin 64), i = ix4 b h c d := ⟨_, _, _, _, eq_ix4 i⟩
  exact v39_at x0 x1 b h c d

theorem v40_at (x0 : (⟨S16x512x64x64, .f32⟩ : BufTy).Contents (Elt Ideal)) (x1 : (⟨S1536x512, .f32⟩ : BufTy).Contents (Elt Ideal)) (b : Fin 16) (h : Fin 8) (c : Fin 64) (n : Fin 4096) :
    val_main_v40 (F := Ideal) x0 x1 (ix4 b h c n) = Attn.attn (Attn.cur4 x0) (Attn.cur2w x1) b h c n := by
  rw [val_main_v40_apply, v39_eq, v9_eq]
  unfold Attn.attn Attn.head
  rfl

theorem v40_eq (x0 : (⟨S16x512x64x64, .f32⟩ : BufTy).Contents (Elt Ideal)) (x1 : (⟨S1536x512, .f32⟩ : BufTy).Contents (Elt Ideal)) :
    val_main_v40 (F := Ideal) x0 x1 = fun i => Attn.attn (Attn.cur4 x0) (Attn.cur2w x1) (i 0) (i 1) (i 2) (i 3) := by
  funext i
  obtain ⟨b, h, c, n, rfl⟩ : ∃ (b : Fin 16) (h : Fin 8) (c : Fin 64) (n : Fin 4096), i = ix4 b h c n := ⟨_, _, _, _, eq_ix4 i⟩
  exact v40_at x0 x1 b h c n

end Cert.ReferenceIdeal.RefValue
-- ==== Proof.RefOut.lean ====
import proofs.«102795_j66219805769965_2_alg».proof.Proof.Gen.ReferenceIdeal.Read
import proofs.«102795_j66219805769965_2_alg».proof.Proof.Spec
import proofs.«102795_j66219805769965_2_alg».proof.Proof.RefHead

noncomputable section

namespace Cert.ReferenceIdeal.RefValue

open Cert.ReferenceIdeal Cert.ReferenceIdeal.Gen Cert.ReferenceIdeal.Read Idealize.ShloMosaic Idealize.ShloMosaic.ValueIdx

/-- The transposed heads re-read as 4096 × 512: position (64·hh + ww, c') of that layout. -/
theorem v42_at (x0 : (⟨S16x512x64x64, .f32⟩ : BufTy).Contents (Elt Ideal)) (x1 : (⟨S1536x512, .f32⟩ : BufTy).Contents (Elt Ideal)) (b : Fin 16) (hh ww : Fin 64) (c' : Fin 512) :
    val_main_v42 (F := Ideal) x0 x1 (ix4 b hh ww c')
      = Attn.mixed (Attn.cur4 x0) (Attn.cur2w x1) b
          (⟨hh.val * 64 + ww.val, by have := hh.isLt; have := ww.isLt; omega⟩ : Fin 4096) c' := by
  rw [val_main_v42_apply, val_main_v41_apply, v40_eq]
  unfold Attn.mixed
  have hb := b.isLt; have h1 := hh.isLt; have h2 := ww.isLt; have h3 := c'.isLt
  have e : idx_main_v41 (idx_main_v42 (ix4 b hh ww c'))
      = ix4 b (⟨((hh.val * 64 + ww.val) * 512 + c'.val) / 4096 % 8, by omega⟩ : Fin 8)
          (⟨((hh.val * 64 + ww.val) * 512 + c'.val) / 32768, by omega⟩ : Fin 64)
          (⟨((hh.val * 64 + ww.val) * 512 + c'.val) % 4096, by omega⟩ : Fin 4096) := funext fun a => Fin.ext (by
    match a with
    | ⟨0, _⟩ => show (((b.val * 64 + hh.val) * 64 + ww.val) * 512 + c'.val) / 2097152 = b.val; omega
    | ⟨1, _⟩ => show (((b.val * 64 + hh.val) * 64 + ww.val) * 512 + c'.val) / 4096 % 8 = ((hh.val * 64 + ww.val) * 512 + c'.val) / 4096 % 8; omega
    | ⟨2, _⟩ => show (((b.val * 64 + hh.val) * 64 + ww.val) * 512 + c'.val) / 32768 % 64 = ((hh.val * 64 + ww.val) * 512 + c'.val) / 32768; omega
    | ⟨3, _⟩ => show (((b.val * 64 + hh.val) * 64 + ww.val) * 512 + c'.val) % 4096 = ((hh.val * 64 + ww.val) * 512 + c'.val) % 4096; omega)
  rw [e]

theorem v46_at (x0 : (⟨S16x512x64x64, .f32⟩ : BufTy).Contents (Elt Ideal)) (x1 : (⟨S1536x512, .f32⟩ : BufTy).Contents (Elt Ideal))
    (x2 : (⟨S512x512, .f32⟩ : BufTy).Contents (Elt Ideal)) (x3 : (⟨S512, .f32⟩ : BufTy).Contents (Elt Ideal)) (b : Fin 16) (hh ww : Fin 64) (d : Fin 512) :
    val_main_v46 (F := Ideal) x0 x1 x2 x3 (ix4 b hh ww d)
      = Attn.out (Attn.cur4 x0) (Attn.cur2w x1) (Attn.cur2p x2) (Attn.cur1 x3) b d
          (⟨hh.val * 64 + ww.val, by have := hh.isLt; have := ww.isLt; omega⟩ : Fin 4096) := by
  rw [val_main_v46_apply, val_main_v43_apply, val_main_v45_apply, val_main_v44_apply]
  simp only [Ideal.addf_def]
  unfold Attn.out Attn.cur2p Attn.cur1
  have eb : idx_main_v44 (idx_main_v45 (ix4 b hh ww d)) = ix1 d := funext fun a => Fin.ext (by
    match a with
    | ⟨0, _⟩ => rfl)
  rw [eb]
  refine congrArg (· + x3 (ix1 d)) (Finset.sum_congr rfl fun k _ => ?_)
  have er : ridx_main_v43 (ix4 b hh ww d) k = ix2 d k := funext fun a => Fin.ext (by
    match a with
    | ⟨0, _⟩ => rfl
    | ⟨1, _⟩ => rfl)
  have el : lidx_main_v43 (ix4 b hh ww d) k = ix4 b hh ww k := funext fun a => Fin.ext (by
    match a with
    | ⟨0, _⟩ => rfl
    | ⟨1, _⟩ => rfl
    | ⟨2, _⟩ => rfl
    | ⟨3, _⟩ => rfl)
  rw [er, el, v42_at, mul_comm]

end Cert.ReferenceIdeal.RefValue
-- ==== Proof.RefIsSpec.lean ====
import proofs.«102795_j66219805769965_2_alg».proof.Proof.Gen.ReferenceIdeal.Read
import proofs.«102795_j66219805769965_2_alg».proof.Proof.Spec
import proofs.«102795_j66219805769965_2_alg».proof.Proof.RefOut

noncomputable section

namespace Cert.ReferenceIdeal.RefValue

open Cert.ReferenceIdeal Cert.ReferenceIdeal.Gen Cert.ReferenceIdeal.Read Idealize.ShloMosaic Idealize.ShloMosaic.ValueIdx

/-- The reference program's result is the specification, index by index. -/
theorem ref_eq (x0 : (⟨S16x512x64x64, .f32⟩ : BufTy).Contents (Elt Ideal)) (x1 : (⟨S1536x512, .f32⟩ : BufTy).Contents (Elt Ideal))
    (x2 : (⟨S512x512, .f32⟩ : BufTy).Contents (Elt Ideal)) (x3 : (⟨S512, .f32⟩ : BufTy).Contents (Elt Ideal)) :
    Cert.ReferenceIdeal.Read.val_main_v47 (F := Ideal) x0 x1 x2 x3 = Cert.Attn.G x0 x1 x2 x3 := by
  funext i
  obtain ⟨b, d, h, w, rfl⟩ : ∃ (b : Fin 16) (d : Fin 512) (h : Fin 64) (w : Fin 64), i = ix4 b d h w := ⟨_, _, _, _, eq_ix4 i⟩
  rw [val_main_v47_apply]
  have e : idx_main_v47 (ix4 b d h w) = ix4 b h w d := funext fun a => Fin.ext (by
    match a with
    | ⟨0, _⟩ => rfl
    | ⟨1, _⟩ => rfl
    | ⟨2, _⟩ => rfl
    | ⟨3, _⟩ => rfl)
  rw [e, v46_at]
  rfl

end Cert.ReferenceIdeal.RefValue
-- ==== Proof.lean ====
/-
  The certificate of the channel-attention kernel against its reference.

  Both idealized programs compute, over the extended reals, the one function `Cert.Attn.G` of the four argument
  arrays (Proof/Spec.lean): per batch entry and head, three 64 × 4096 projections of the tokens; the first two
  divided row by row by the larger of the row's Euclidean norm and a small constant; their 64 × 64 matrix of
  inner products times 1/8 through a row softmax; that matrix times the third projection; the heads' results
  re-read as tokens × channels, times the output weight, plus the bias.

  The kernel side: the program's run with its result named (Proof/KRun.lean) ends with the result array at the
  fold of its segments over the launch memory; read back segment by segment (Proof/KernelChain.lean) that is a
  term of the arguments — the attention region's output (Proof/AttnPieces.lean, Proof/AttnRegion.lean: eight
  stores per grid point, each a tile of one function of the block index) feeding the projection region's
  (Proof/ProjRegion.lean) through reshapes — and the term is `G` (Proof/KernelTerm.lean, over the body's
  arithmetic read at an index, Proof/Pay*.lean).  The reference side: its generated run ends at the composed
  term of its host operations, which is `G` operation by operation (Proof/Ref*.lean).  No step needs the
  inputs finite: the two sides apply the same operations to the same entries, in sums and products whose order
  is free on the extended reals.

  The three frame claims are the generated frames (the reference's: its run with the result dropped); no
  operation of the kernel was rewritten by the idealization, so `preserves` is trivial.
-/
import proofs.«102795_j66219805769965_2_alg».proof.Defs
import proofs.«102795_j66219805769965_2_alg».proof.Proof.Gen.Kernel
import proofs.«102795_j66219805769965_2_alg».proof.Proof.Gen.Kernel.Skeleton
import proofs.«102795_j66219805769965_2_alg».proof.Proof.Gen.Kernel.Loops
import proofs.«102795_j66219805769965_2_alg».proof.Proof.Gen.Kernel.Launch
import proofs.«102795_j66219805769965_2_alg».proof.Proof.Gen.Kernel.Points
import proofs.«102795_j66219805769965_2_alg».proof.Proof.Gen.Kernel.Frame
import proofs.«102795_j66219805769965_2_alg».proof.Proof.Gen.KernelIdeal
import proofs.«102795_j66219805769965_2_alg».proof.Proof.Gen.KernelIdeal.Skeleton
import proofs.«102795_j66219805769965_2_alg».proof.Proof.Gen.KernelIdeal.Loops
import proofs.«102795_j66219805769965_2_alg».proof.Proof.Gen.KernelIdeal.Launch
import proofs.«102795_j66219805769965_2_alg».proof.Proof.Gen.KernelIdeal.Points
import proofs.«102795_j66219805769965_2_alg».proof.Proof.Gen.KernelIdeal.Frame
import proofs.«102795_j66219805769965_2_alg».proof.Proof.Gen.ReferenceIdeal
import proofs.«102795_j66219805769965_2_alg».proof.Proof.Gen.ReferenceIdeal.Run
import proofs.«102795_j66219805769965_2_alg».proof.Proof.Gen.ReferenceIdeal.Read
import proofs.«102795_j66219805769965_2_alg».proof.Proof.Gen.Pre_finite_inputs
import proofs.«102795_j66219805769965_2_alg».proof.Proof.KernelChain
import proofs.«102795_j66219805769965_2_alg».proof.Proof.RefIsSpec
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- From memories agreeing on the arguments both idealized programs end with their result at `G` of the
    arguments: the kernel program's run read back to its result term, the reference's run to its stage. -/
theorem algebraic : Cert.algebraic_KernelIdeal_ReferenceIdeal := by
  intro m ρ m' ρ' _ hagree
  refine ⟨fun c => Cert.Attn.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · exact (θ_run Cert.KernelIdeal.defs _ _).mono
      (fun r h c => ⟨(h c).1.trans ((Cert.KernelIdeal.Chain.result_eq m ρ c).trans (Cert.KernelIdeal.Chain.kernelTerm_eq _ _ _ _)), (h c).2⟩)
      (Cert.KernelIdeal.RunValue.run (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v47_eq, Cert.ReferenceIdeal.RefValue.ref_eq,
      (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
